-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S128x30 : Shape := ⟨2, ![128, 30]⟩
abbrev S1x30 : Shape := ⟨2, ![1, 30]⟩
abbrev S30x16 : Shape := ⟨2, ![30, 16]⟩
abbrev S1x16 : Shape := ⟨2, ![1, 16]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S128x30 : S_.BroadcastsInDim S128x30 (![] : Fin 0 → Fin S128x30.rank)
  reducesTo_S128x30_S_d0_1 : S128x30.ReducesTo [0, 1] S_
  bcast_S_S1x30 : S_.BroadcastsInDim S1x30 (![] : Fin 0 → Fin S1x30.rank)
  reducesTo_S1x30_S_d0_1 : S1x30.ReducesTo [0, 1] S_
  bcast_S_S30x16 : S_.BroadcastsInDim S30x16 (![] : Fin 0 → Fin S30x16.rank)
  reducesTo_S30x16_S_d0_1 : S30x16.ReducesTo [0, 1] S_
  bcast_S_S1x16 : S_.BroadcastsInDim S1x16 (![] : Fin 0 → Fin S1x16.rank)
  reducesTo_S1x16_S_d0_1 : S1x16.ReducesTo [0, 1] S_

variable [Facts]

def fn_part1 {F : FTy → Type} [FloatOps F] (main_arg4 : FVec F S1x16 .f32) (main_v13 : IVec S_ 1) (main_v16 : IVec S30x16 1) : IVec S_ 1 :=
  let main_c_5 : IVec S_ 1 := constantI S_ 1 1#1
  let main_v17 : IVec S_ 1 := (fun x v => Host.reduce IntOp.andi x v reducesTo_S30x16_S_d0_1 h_S_) main_v16 main_c_5
  let main_v18 : IVec S_ 1 := andi main_v13 main_v17
  let main_v19 : FVec F S1x16 .f32 := Host.absf main_arg4
  let main_cst_6 : FVec F S_ .f32 := constant S_ .f32 0x7F800000#32
  let main_v20 : FVec F S1x16 .f32 := broadcastInDim S1x16 ![] bcast_S_S1x16 main_cst_6
  let main_v21 : IVec S1x16 1 := cmpf .olt main_v19 main_v20
  let main_c_7 : IVec S_ 1 := constantI S_ 1 1#1
  let main_v22 : IVec S_ 1 := (fun x v => Host.reduce IntOp.andi x v reducesTo_S1x16_S_d0_1 h_S_) main_v21 main_c_7
  let main_v23 : IVec S_ 1 := andi main_v18 main_v22
  main_v23

def fn {F : FTy → Type} [FloatOps F] (main_arg0 : FVec F S131072x128 .f32) (main_arg1 : FVec F S128x30 .f32) (main_arg2 : FVec F S1x30 .f32) (main_arg3 : FVec F S30x16 .f32) (main_arg4 : FVec F S1x16 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S128x30 .f32 := Host.absf main_arg1
  let main_cst_0 : FVec F S_ .f32 := constant S_ .f32 0x7F800000#32
  let main_v5 : FVec F S128x30 .f32 := broadcastInDim S128x30 ![] bcast_S_S128x30 main_cst_0
  let main_v6 : IVec S128x30 1 := cmpf .olt main_v4 main_v5
  let main_c_1 : IVec S_ 1 := constantI S_ 1 1#1
  let main_v7 : IVec S_ 1 := (fun x v => Host.reduce IntOp.andi x v reducesTo_S128x30_S_d0_1 h_S_) main_v6 main_c_1
  let main_v8 : IVec S_ 1 := andi main_v3 main_v7
  let main_v9 : FVec F S1x30 .f32 := Host.absf main_arg2
  let main_cst_2 : FVec F S_ .f32 := constant S_ .f32 0x7F800000#32
  let main_v10 : FVec F S1x30 .f32 := broadcastInDim S1x30 ![] bcast_S_S1x30 main_cst_2
  let main_v11 : IVec S1x30 1 := cmpf .olt main_v9 main_v10
  let main_c_3 : IVec S_ 1 := constantI S_ 1 1#1
  let main_v12 : IVec S_ 1 := (fun x v => Host.reduce IntOp.andi x v reducesTo_S1x30_S_d0_1 h_S_) main_v11 main_c_3
  let main_v13 : IVec S_ 1 := andi main_v8 main_v12
  let main_v14 : FVec F S30x16 .f32 := Host.absf main_arg3
  let main_cst_4 : FVec F S_ .f32 := constant S_ .f32 0x7F800000#32
  let main_v15 : FVec F S30x16 .f32 := broadcastInDim S30x16 ![] bcast_S_S30x16 main_cst_4
  let main_v16 : IVec S30x16 1 := cmpf .olt main_v14 main_v15
  fn_part1 (F := F) main_arg4 main_v13 main_v16
-- ==== Kernel.lean ====
abbrev S131072x128 : Shape := ⟨2, ![131072, 128]⟩
abbrev S128x30 : Shape := ⟨2, ![128, 30]⟩
abbrev S1x30 : Shape := ⟨2, ![1, 30]⟩
abbrev S30x16 : Shape := ⟨2, ![30, 16]⟩
abbrev S1x16 : Shape := ⟨2, ![1, 16]⟩
abbrev S30x128 : Shape := ⟨2, ![30, 128]⟩
abbrev S16x30 : Shape := ⟨2, ![16, 30]⟩
abbrev S16x131072 : Shape := ⟨2, ![16, 131072]⟩
abbrev S32768x128 : Shape := ⟨2, ![32768, 128]⟩
abbrev S16x32768 : Shape := ⟨2, ![16, 32768]⟩
abbrev S32768x30 : Shape := ⟨2, ![32768, 30]⟩
abbrev S32768x16 : Shape := ⟨2, ![32768, 16]⟩
abbrev S131072x16 : Shape := ⟨2, ![131072, 16]⟩

abbrev nBuf : Space → Nat
  | .hbm => 9
  | .vmem => 8
  | .smem => 0
  | _ => 0

abbrev bufTy : (tb : Table) → Fin (tcTables nBuf tb) → BufTy
  | .hbm, ⟨0, _⟩ => ⟨S131072x128, .f32⟩
  | .hbm, ⟨1, _⟩ => ⟨S128x30, .f32⟩
  | .hbm, ⟨2, _⟩ => ⟨S1x30, .f32⟩
  | .hbm, ⟨3, _⟩ => ⟨S30x16, .f32⟩
  | .hbm, ⟨4, _⟩ => ⟨S1x16, .f32⟩
  | .hbm, ⟨5, _⟩ => ⟨S30x128, .f32⟩
  | .hbm, ⟨6, _⟩ => ⟨S16x30, .f32⟩
  | .hbm, ⟨7, _⟩ => ⟨S16x131072, .f32⟩
  | .hbm, ⟨8, _⟩ => ⟨S131072x16, .f32⟩
  | .local _ .vmem, ⟨0, _⟩ => ⟨S32768x128, .f32⟩
  | .local _ .vmem, ⟨1, _⟩ => ⟨S32768x128, .f32⟩
  | .local _ .vmem, ⟨2, _⟩ => ⟨S30x128, .f32⟩
  | .local _ .vmem, ⟨3, _⟩ => ⟨S1x30, .f32⟩
  | .local _ .vmem, ⟨4, _⟩ => ⟨S16x30, .f32⟩
  | .local _ .vmem, ⟨5, _⟩ => ⟨S1x16, .f32⟩
  | .local _ .vmem, ⟨6, _⟩ => ⟨S16x32768, .f32⟩
  | .local _ .vmem, ⟨7, _⟩ => ⟨S16x32768, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S32768x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S30x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x30 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x30 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x32768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S128x30_S30x128_1_0 : S128x30.Transposes [1, 0] S30x128
  transposes_S30x16_S16x30_1_0 : S30x16.Transposes [1, 0] S16x30
  inb_S32768x128_S32768x128_0_0 : ∀ a, (![0, 0] : Fin 2 → Nat) a + S32768x128.size a ≤ S32768x128.size a
  h_S32768x128 : 0 < S32768x128.numel
  inb_S30x128_S30x128_0_0 : ∀ a, (![0, 0] : Fin 2 → Nat) a + S30x128.size a ≤ S30x128.size a
  h_S30x128 : 0 < S30x128.numel
  shapeCasts_S30x128_S30x128 : S30x128.ShapeCasts S30x128
  inb_S1x30_S1x30_0_0 : ∀ a, (![0, 0] : Fin 2 → Nat) a + S1x30.size a ≤ S1x30.size a
  h_S1x30 : 0 < S1x30.numel
  broadcasts_S1x30_S32768x30 : S1x30.Broadcasts S32768x30
  inb_S16x30_S16x30_0_0 : ∀ a, (![0, 0] : Fin 2 → Nat) a + S16x30.size a ≤ S16x30.size a
  h_S16x30 : 0 < S16x30.numel
  shapeCasts_S16x30_S16x30 : S16x30.ShapeCasts S16x30
  inb_S1x16_S1x16_0_0 : ∀ a, (![0, 0] : Fin 2 → Nat) a + S1x16.size a ≤ S1x16.size a
  h_S1x16 : 0 < S1x16.numel
  broadcasts_S1x16_S32768x16 : S1x16.Broadcasts S32768x16
  transposes_S32768x16_p1_0_S16x32768 : S32768x16.Transposes [1, 0] S16x32768
  inb_S16x32768_S16x32768_0_0 : ∀ a, (![0, 0] : Fin 2 → Nat) a + S16x32768.size a ≤ S16x32768.size a
  h_S16x32768 : 0 < S16x32768.numel
  transposes_S16x131072_S131072x16_1_0 : S16x131072.Transposes [1, 0] S131072x16
  dot_S32768x128_S30x128_S32768x30_1_1_0_0_n_n_wf : DotDims.WF S32768x128 S30x128 S32768x30 [1] [1] [0] [0] [] []
  dot_S32768x30_S16x30_S32768x16_1_1_0_0_n_n_wf : DotDims.WF S32768x30 S16x30 S32768x16 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32768x128.size a ≤ S131072x128.size a
  hwx0_0 : ∀ i : grid0.Coords, EltTy.bits .f32 = 32 ∨ (Rect.block (s := S131072x128) S32768x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S30x128.size a ≤ S30x128.size a
  hwx0_1 : ∀ i : grid0.Coords, EltTy.bits .f32 = 32 ∨ (Rect.block (s := S30x128) S30x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x30.size a ≤ S1x30.size a
  hwx0_2 : ∀ i : grid0.Coords, EltTy.bits .f32 = 32 ∨ (Rect.block (s := S1x30) S1x30.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x30.size a ≤ S16x30.size a
  hwx0_3 : ∀ i : grid0.Coords, EltTy.bits .f32 = 32 ∨ (Rect.block (s := S16x30) S16x30.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x32768.size a ≤ S16x131072.size a
  hwx0_5 : ∀ i : grid0.Coords, EltTy.bits .f32 = 32 ∨ (Rect.block (s := S16x131072) S16x32768.size (cc0_transform_5 i) (hinb0_5 i)).WholeWords (EltTy.packing .f32)

variable [Facts₀]

def dot_S32768x128_S30x128_S32768x30_1_1_0_0_n_n : DotDims S32768x128 S30x128 S32768x30 where
  lhsContracting := [1]
  rhsContracting := [1]
  lhsNonContracting := [0]
  rhsNonContracting := [0]
  lhsBatch := []
  rhsBatch := []
  wf := dot_S32768x128_S30x128_S32768x30_1_1_0_0_n_n_wf
def dot_S32768x30_S16x30_S32768x16_1_1_0_0_n_n : DotDims S32768x30 S16x30 S32768x16 where
  lhsContracting := [1]
  rhsContracting := [1]
  lhsNonContracting := [0]
  rhsNonContracting := [0]
  lhsBatch := []
  rhsBatch := []
  wf := dot_S32768x30_S16x30_S32768x16_1_1_0_0_n_n_wf

abbrev win0_0 : Pipeline.Window sig grid0 :=
  Pipeline.Window.ofSpec (Memref.whole main_arg0) S32768x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S30x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x30.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S16x30.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S16x32768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S131072x128 : Shape := ⟨2, ![131072, 128]⟩
abbrev S128x30 : Shape := ⟨2, ![128, 30]⟩
abbrev S1x30 : Shape := ⟨2, ![1, 30]⟩
abbrev S30x16 : Shape := ⟨2, ![30, 16]⟩
abbrev S1x16 : Shape := ⟨2, ![1, 16]⟩
abbrev S_ : Shape := ⟨0, ![]⟩
abbrev S131072x256 : Shape := ⟨2, ![131072, 256]⟩
abbrev S1 : Shape := ⟨1, ![1]⟩
abbrev S131072 : Shape := ⟨1, ![131072]⟩
abbrev S256x128 : Shape := ⟨2, ![256, 128]⟩
abbrev S2 : Shape := ⟨1, ![2]⟩
abbrev S30 : Shape := ⟨1, ![30]⟩
abbrev S128x128 : Shape := ⟨2, ![128, 128]⟩
abbrev S16 : Shape := ⟨1, ![16]⟩
abbrev S1024x256 : Shape := ⟨2, ![1024, 256]⟩
abbrev S1024x128 : Shape := ⟨2, ![1024, 128]⟩
abbrev S131072x16 : Shape := ⟨2, ![131072, 16]⟩

abbrev nBuf : Space → Nat
  | .hbm => 54
  | .vmem => 6
  | .smem => 0
  | _ => 0

abbrev bufTy : (tb : Table) → Fin (tcTables nBuf tb) → BufTy
  | .hbm, ⟨0, _⟩ => ⟨S131072x128, .f32⟩
  | .hbm, ⟨1, _⟩ => ⟨S128x30, .f32⟩
  | .hbm, ⟨2, _⟩ => ⟨S1x30, .f32⟩
  | .hbm, ⟨3, _⟩ => ⟨S30x16, .f32⟩
  | .hbm, ⟨4, _⟩ => ⟨S1x16, .f32⟩
  | .hbm, ⟨5, _⟩ => ⟨S_, .f32⟩
  | .hbm, ⟨6, _⟩ => ⟨S131072x256, .f32⟩
  | .hbm, ⟨7, _⟩ => ⟨S_, .i32⟩
  | .hbm, ⟨8, _⟩ => ⟨S1, .i32⟩
  | .hbm, ⟨9, _⟩ => ⟨S131072x256, .f32⟩
  | .hbm, ⟨10, _⟩ => ⟨S_, .i32⟩
  | .hbm, ⟨11, _⟩ => ⟨S1, .i32⟩
  | .hbm, ⟨12, _⟩ => ⟨S_, .f32⟩
  | .hbm, ⟨13, _⟩ => ⟨S131072, .f32⟩
  | .hbm, ⟨14, _⟩ => ⟨S131072x256, .f32⟩
  | .hbm, ⟨15, _⟩ => ⟨S_, .f32⟩
  | .hbm, ⟨16, _⟩ => ⟨S256x128, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S256x128, .f32⟩
  | .hbm, ⟨23, _⟩ => ⟨S30, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S256x128, .f32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S2, .i32⟩
  | .hbm, ⟨35, _⟩ => ⟨S_, .f32⟩
  | .hbm, ⟨36, _⟩ => ⟨S256x128, .f32⟩
  | .hbm, ⟨37, _⟩ => ⟨S_, .f32⟩
  | .hbm, ⟨38, _⟩ => ⟨S128x128, .f32⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S2, .i32⟩
  | .hbm, ⟨44, _⟩ => ⟨S128x128, .f32⟩
  | .hbm, ⟨45, _⟩ => ⟨S16, .f32⟩
  | .hbm, ⟨46, _⟩ => ⟨S_, .i32⟩
  | .hbm, ⟨47, _⟩ => ⟨S1, .i32⟩
  | .hbm, ⟨48, _⟩ => ⟨S_, .i32⟩
  | .hbm, ⟨49, _⟩ => ⟨S1, .i32⟩
  | .hbm, ⟨50, _⟩ => ⟨S2, .i32⟩
  | .hbm, ⟨51, _⟩ => ⟨S128x128, .f32⟩
  | .hbm, ⟨52, _⟩ => ⟨S131072x128, .f32⟩
  | .hbm, ⟨53, _⟩ => ⟨S131072x16, .f32⟩
  | .local _ .vmem, ⟨0, _⟩ => ⟨S1024x256, .f32⟩
  | .local _ .vmem, ⟨1, _⟩ => ⟨S1024x256, .f32⟩
  | .local _ .vmem, ⟨2, _⟩ => ⟨S256x128, .f32⟩
  | .local _ .vmem, ⟨3, _⟩ => ⟨S128x128, .f32⟩
  | .local _ .vmem, ⟨4, _⟩ => ⟨S1024x128, .f32⟩
  | .local _ .vmem, ⟨5, _⟩ => ⟨S1024x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_c_3 : Ref sig .tc := ⟨.hbm, 17, rfl⟩
abbrev main_v7 : Ref sig .tc := ⟨.hbm, 18, rfl⟩
abbrev main_c_4 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_5 : Ref sig .tc := ⟨.hbm, 24, rfl⟩
abbrev main_v12 : Ref sig .tc := ⟨.hbm, 25, rfl⟩
abbrev main_c_6 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_7 : Ref sig .tc := ⟨.hbm, 30, rfl⟩
abbrev main_v16 : Ref sig .tc := ⟨.hbm, 31, rfl⟩
abbrev main_c_8 : Ref sig .tc := ⟨.hbm, 32, rfl⟩
abbrev main_v17 : Ref sig .tc := ⟨.hbm, 33, rfl⟩
abbrev main_v18 : Ref sig .tc := ⟨.hbm, 34, rfl⟩
abbrev main_cst_9 : Ref sig .tc := ⟨.hbm, 35, rfl⟩
abbrev main_v19 : Ref sig .tc := ⟨.hbm, 36, rfl⟩
abbrev main_cst_10 : Ref sig .tc := ⟨.hbm, 37, rfl⟩
abbrev main_v20 : Ref sig .tc := ⟨.hbm, 38, rfl⟩
abbrev main_c_11 : Ref sig .tc := ⟨.hbm, 39, rfl⟩
abbrev main_v21 : Ref sig .tc := ⟨.hbm, 40, rfl⟩
abbrev main_c_12 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_13 : Ref sig .tc := ⟨.hbm, 46, rfl⟩
abbrev main_v26 : Ref sig .tc := ⟨.hbm, 47, rfl⟩
abbrev main_c_14 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S131072x256 : S_.BroadcastsInDim S131072x256 (![] : Fin 0 → Fin S131072x256.rank)
  bcast_S_S1 : S_.BroadcastsInDim S1 (![] : Fin 0 → Fin S1.rank)
  bcast_S_S131072 : S_.BroadcastsInDim S131072 (![] : Fin 0 → Fin S131072.rank)
  bcast_S_S256x128 : S_.BroadcastsInDim S256x128 (![] : Fin 0 → Fin S256x128.rank)
  concatenates_S1_S1_S2_d0 : Shape.Concatenates [S1, S1] S2 0
  shapeCasts_S1x30_S30 : S1x30.ShapeCasts S30
  bcast_S_S128x128 : S_.BroadcastsInDim S128x128 (![] : Fin 0 → Fin S128x128.rank)
  shapeCasts_S1x16_S16 : S1x16.ShapeCasts S16
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1024x128_S1024x128_0_0 : ∀ a, (![0, 0] : Fin 2 → Nat) a + S1024x128.size a ≤ S1024x128.size a
  h_S1024x128 : 0 < S1024x128.numel
  slices_S131072x128_S131072x16_0_0 : S131072x128.Slices ![0, 0] S131072x16
  scatter_S131072x256_S1_S131072x128_01_n_1_0_wf : ScatterDims.WF S131072x256 S1 S131072x128 [0, 1] [] [1] 0
  scatter_S131072x256_S1_S131072_0_1_1_0_wf : ScatterDims.WF S131072x256 S1 S131072 [0] [1] [1] 0
  scatter_S256x128_S2_S128x30_01_n_01_0_wf : ScatterDims.WF S256x128 S2 S128x30 [0, 1] [] [0, 1] 0
  scatter_S256x128_S2_S30_0_0_01_0_wf : ScatterDims.WF S256x128 S2 S30 [0] [0] [0, 1] 0
  scatter_S256x128_S2_S__n_01_01_0_wf : ScatterDims.WF S256x128 S2 S_ [] [0, 1] [0, 1] 0
  scatter_S128x128_S2_S30x16_01_n_01_0_wf : ScatterDims.WF S128x128 S2 S30x16 [0, 1] [] [0, 1] 0
  scatter_S128x128_S2_S16_0_0_01_0_wf : ScatterDims.WF S128x128 S2 S16 [0] [0] [0, 1] 0
  dot_S1024x256_S256x128_S1024x128_1_0_0_1_n_n_wf : DotDims.WF S1024x256 S256x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S131072x256.size a
  hwx0_0 : ∀ i : grid0.Coords, EltTy.bits .f32 = 32 ∨ (Rect.block (s := S131072x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S131072x128.size a
  hwx0_3 : ∀ i : grid0.Coords, EltTy.bits .f32 = 32 ∨ (Rect.block (s := S131072x128) S1024x128.size (cc0_transform_3 i) (hinb0_3 i)).WholeWords (EltTy.packing .f32)

variable [Facts₀]

def scatter_S131072x256_S1_S131072x128_01_n_1_0 : ScatterDims S131072x256 S1 S131072x128 where
  updateWindowDims := [0, 1]
  insertedWindowDims := []
  scatterDimsToOperandDims := [1]
  indexVectorDim := 0
  wf := scatter_S131072x256_S1_S131072x128_01_n_1_0_wf
def scatter_S131072x256_S1_S131072_0_1_1_0 : ScatterDims S131072x256 S1 S131072 where
  updateWindowDims := [0]
  insertedWindowDims := [1]
  scatterDimsToOperandDims := [1]
  indexVectorDim := 0
  wf := scatter_S131072x256_S1_S131072_0_1_1_0_wf
def scatter_S256x128_S2_S128x30_01_n_01_0 : ScatterDims S256x128 S2 S128x30 where
  updateWindowDims := [0, 1]
  insertedWindowDims := []
  scatterDimsToOperandDims := [0, 1]
  indexVectorDim := 0
  wf := scatter_S256x128_S2_S128x30_01_n_01_0_wf
def scatter_S256x128_S2_S30_0_0_01_0 : ScatterDims S256x128 S2 S30 where
  updateWindowDims := [0]
  insertedWindowDims := [0]
  scatterDimsToOperandDims := [0, 1]
  indexVectorDim := 0
  wf := scatter_S256x128_S2_S30_0_0_01_0_wf
def scatter_S256x128_S2_S__n_01_01_0 : ScatterDims S256x128 S2 S_ where
  updateWindowDims := []
  insertedWindowDims := [0, 1]
  scatterDimsToOperandDims := [0, 1]
  indexVectorDim := 0
  wf := scatter_S256x128_S2_S__n_01_01_0_wf
def scatter_S128x128_S2_S30x16_01_n_01_0 : ScatterDims S128x128 S2 S30x16 where
  updateWindowDims := [0, 1]
  insertedWindowDims := []
  scatterDimsToOperandDims := [0, 1]
  indexVectorDim := 0
  wf := scatter_S128x128_S2_S30x16_01_n_01_0_wf
def scatter_S128x128_S2_S16_0_0_01_0 : ScatterDims S128x128 S2 S16 where
  updateWindowDims := [0]
  insertedWindowDims := [0]
  scatterDimsToOperandDims := [0, 1]
  indexVectorDim := 0
  wf := scatter_S128x128_S2_S16_0_0_01_0_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_v5) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.Spec.lean ====
/-
  The two-layer network both programs compute, on the extended reals, one input row at a time:
    out(x)_a = 2 · tanh( Σ_j max( Σ_k x_k · w1_{k,j} + b1_j , 0 ) · w2_{j,a} + b2_a ),
  over 128 inputs, 30 hidden units and 16 outputs; and the same network with the two biases FOLDED INTO
  PADDED MATRICES: the row is extended to 256 entries by a one in position 128 and zeros after it, the first
  weight matrix to 256 × 128 with the bias in row 128 and a one at (128, 30) that carries the one through the
  hidden layer, the second to 128 × 128 with the bias in row 30.  The padded network's first 16 outputs are the
  plain network's (`outP_eq`): every product that the padding adds has a zero factor, the one times a bias is the
  bias, max(1, 0) = 1 and max(0, 0) = 0.  No finiteness is used: a zero factor annihilates every extended real.
-/
import Idealize.ShloMosaic.PureOps.Ideal.Laws
import Mathlib.Algebra.BigOperators.Fin
import Idealize.ShloMosaic.Lib.ValueIdx

open scoped BigOperators

noncomputable section

namespace Cert.Anet.Spec

open Idealize.ShloMosaic Idealize.ShloMosaic.ValueIdx

/-- The zero word and the words of 1 and 2, as extended reals. -/
abbrev zeroW : EReal := Ideal.ofBits .f32 0x00000000#32
abbrev oneW : EReal := Ideal.ofBits .f32 0x3F800000#32
abbrev twoW : EReal := Ideal.ofBits .f32 0x40000000#32

theorem zeroW_eq : zeroW = 0 := Ideal.ofBits_zero_f32
theorem oneW_eq : oneW = 1 := by
  simp [oneW, Ideal.ofBits, Ideal.ieee]
  rw [← EReal.coe_mul]
  norm_num

/-! ## The plain network -/

/-- Hidden unit `j` of the row `x`. -/
def hidden (x : Fin 128 → EReal) (w1 : Fin 128 → Fin 30 → EReal) (b1 : Fin 30 → EReal) (j : Fin 30) : EReal :=
  max ((∑ k : Fin 128, x k * w1 k j) + b1 j) zeroW

/-- Output `a` of the row `x`. -/
def out (x : Fin 128 → EReal) (w1 : Fin 128 → Fin 30 → EReal) (b1 : Fin 30 → EReal) (w2 : Fin 30 → Fin 16 → EReal)
    (b2 : Fin 16 → EReal) (a : Fin 16) : EReal :=
  Ideal.tanh ((∑ j : Fin 30, hidden x w1 b1 j * w2 j a) + b2 a) * twoW

/-- The network depends on its arguments only through their values. -/
theorem out_congr {x x' : Fin 128 → EReal} {w1 w1' : Fin 128 → Fin 30 → EReal} {b1 b1' : Fin 30 → EReal}
    {w2 w2' : Fin 30 → Fin 16 → EReal} {b2 b2' : Fin 16 → EReal} {a a' : Fin 16}
    (hx : ∀ k, x k = x' k) (hw1 : ∀ k j, w1 k j = w1' k j) (hb1 : ∀ j, b1 j = b1' j) (hw2 : ∀ j a, w2 j a = w2' j a)
    (hb2 : ∀ a, b2 a = b2' a) (ha : a = a') : out x w1 b1 w2 b2 a = out x' w1' b1' w2' b2' a' := by
  obtain rfl : x = x' := funext hx
  obtain rfl : w1 = w1' := funext fun k => funext (hw1 k)
  obtain rfl : b1 = b1' := funext hb1
  obtain rfl : w2 = w2' := funext fun j => funext (hw2 j)
  obtain rfl : b2 = b2' := funext hb2
  rw [ha]

/-- The network applied to every row of a 131072 × 128 array: the whole result, 131072 × 16. -/
def netArr (X : (⟨2, ![131072, 128]⟩ : Shape).Idx → EReal) (W1 : (⟨2, ![128, 30]⟩ : Shape).Idx → EReal)
    (B1 : (⟨2, ![1, 30]⟩ : Shape).Idx → EReal) (W2 : (⟨2, ![30, 16]⟩ : Shape).Idx → EReal)
    (B2 : (⟨2, ![1, 16]⟩ : Shape).Idx → EReal) : (⟨2, ![131072, 16]⟩ : Shape).Idx → EReal :=
  fun i => out (fun k => X (ix2 (i 0) k)) (fun k j => W1 (ix2 k j)) (fun j => B1 (ix2 0 j)) (fun j a => W2 (ix2 j a))
    (fun a => B2 (ix2 0 a)) (i 1)

/-! ## The padded network -/

/-- The row extended by a one and zeros. -/
def padX (x : Fin 128 → EReal) (k : Fin 256) : EReal :=
  if h : k.val < 128 then x ⟨k.val, h⟩ else if k.val = 128 then oneW else zeroW

/-- The first weight matrix with the bias row and the carrying one. -/
def padW1 (w1 : Fin 128 → Fin 30 → EReal) (b1 : Fin 30 → EReal) (k : Fin 256) (j : Fin 128) : EReal :=
  if h : k.val < 128 ∧ j.val < 30 then w1 ⟨k.val, h.1⟩ ⟨j.val, h.2⟩
  else if h : k.val = 128 ∧ j.val < 30 then b1 ⟨j.val, h.2⟩
  else if k.val = 128 ∧ j.val = 30 then oneW else zeroW

/-- The second weight matrix with the bias row. -/
def padW2 (w2 : Fin 30 → Fin 16 → EReal) (b2 : Fin 16 → EReal) (j : Fin 128) (a : Fin 128) : EReal :=
  if h : j.val < 30 ∧ a.val < 16 then w2 ⟨j.val, h.1⟩ ⟨a.val, h.2⟩
  else if h : j.val = 30 ∧ a.val < 16 then b2 ⟨a.val, h.2⟩ else zeroW

/-- Hidden unit `j` of the padded network: no bias term. -/
def hiddenP (xp : Fin 256 → EReal) (w1p : Fin 256 → Fin 128 → EReal) (j : Fin 128) : EReal :=
  max (∑ k : Fin 256, xp k * w1p k j) zeroW

/-- Output `c` of the padded network. -/
def outP (xp : Fin 256 → EReal) (w1p : Fin 256 → Fin 128 → EReal) (w2p : Fin 128 → Fin 128 → EReal) (c : Fin 128) : EReal :=
  Ideal.tanh (∑ j : Fin 128, hiddenP xp w1p j * w2p j c) * twoW

/-! ## A sum whose terms vanish past position `n` -/

/-- A sum over `N` positions whose terms vanish after position `n` is the sum of the first `n` terms plus term `n`. -/
theorem sum_pad {M : Type} [AddCommMonoid M] (n N : Nat) (h : n < N) (f : Fin N → M)
    (hz : ∀ k : Fin N, n < k.val → f k = 0) :
    ∑ k : Fin N, f k = (∑ k : Fin n, f ⟨k.val, lt_trans k.isLt h⟩) + f ⟨n, h⟩ := by
  let g : Nat → M := fun i => if hi : i < N then f ⟨i, hi⟩ else 0
  have e1 : ∑ k : Fin N, f k = ∑ i ∈ Finset.range N, g i := by
    rw [← Fin.sum_univ_eq_sum_range g N]
    exact Finset.sum_congr rfl fun k _ => by simp only [g, dif_pos k.isLt]
  have e2 : ∑ i ∈ Finset.range N, g i = ∑ i ∈ Finset.range (n + 1), g i := by
    refine (Finset.sum_subset (Finset.range_subset_range.2 h) fun i hiN hin => ?_).symm
    have hi : i < N := Finset.mem_range.1 hiN
    have hn : n < i := by have := Finset.mem_range.not.1 hin; omega
    simp only [g, dif_pos hi]
    exact hz ⟨i, hi⟩ hn
  have e3 : ∑ i ∈ Finset.range n, g i = ∑ k : Fin n, f ⟨k.val, lt_trans k.isLt h⟩ := by
    rw [← Fin.sum_univ_eq_sum_range g n]
    exact Finset.sum_congr rfl fun k _ => by simp only [g, dif_pos (lt_trans k.isLt h)]
  rw [e1, e2, Finset.sum_range_succ, e3]
  simp only [g, dif_pos h]

/-! ## The padded network is the plain one -/

section Fold
variable (x : Fin 128 → EReal) (w1 : Fin 128 → Fin 30 → EReal) (b1 : Fin 30 → EReal)
  (w2 : Fin 30 → Fin 16 → EReal) (b2 : Fin 16 → EReal)

/-- The padded first product at a hidden unit below 30: the plain product plus the bias. -/
theorem sumP_lt (j : Fin 128) (hj : j.val < 30) :
    ∑ k : Fin 256, padX x k * padW1 w1 b1 k j = (∑ k : Fin 128, x k * w1 k ⟨j.val, hj⟩) + b1 ⟨j.val, hj⟩ := by
  rw [sum_pad 128 256 (by norm_num) _ (fun k hk => by
    have h1 : ¬ k.val < 128 := by omega
    have h2 : ¬ k.val = 128 := by omega
    simp only [padX, dif_neg h1, if_neg h2, zeroW_eq, zero_mul])]
  congr 1
  · refine Finset.sum_congr rfl fun k _ => ?_
    have hk : (⟨k.val, lt_trans k.isLt (by norm_num)⟩ : Fin 256).val < 128 := k.isLt
    simp only [padX, padW1, dif_pos hk, dif_pos (And.intro hk hj)]
  · have h1 : ¬ (128 : Nat) < 128 := by omega
    simp [padX, padW1, hj, oneW_eq]

/-- At hidden unit 30 it is the one that the padding carries. -/
theorem sumP_eq (j : Fin 128) (hj : j.val = 30) : ∑ k : Fin 256, padX x k * padW1 w1 b1 k j = 1 := by
  rw [sum_pad 128 256 (by norm_num) _ (fun k hk => by
    have h1 : ¬ k.val < 128 := by omega
    have h2 : ¬ k.val = 128 := by omega
    simp only [padX, dif_neg h1, if_neg h2, zeroW_eq, zero_mul])]
  have hj' : ¬ j.val < 30 := by omega
  have h0 : ∑ k : Fin 128, padX x ⟨k.val, lt_trans k.isLt (by norm_num)⟩ * padW1 w1 b1 ⟨k.val, lt_trans k.isLt (by norm_num)⟩ j = 0 := by
    refine Finset.sum_eq_zero fun k _ => ?_
    have hk : ¬ (⟨k.val, lt_trans k.isLt (by norm_num)⟩ : Fin 256).val = 128 := by have := k.isLt; show ¬ k.val = 128; omega
    simp only [padW1, dif_neg (fun h : _ ∧ j.val < 30 => hj' h.2), if_neg (fun h : _ ∧ j.val = 30 => hk h.1), zeroW_eq, mul_zero]
  have h1 : ¬ (128 : Nat) < 128 := by omega
  rw [h0, zero_add]
  simp [padX, padW1, hj, oneW_eq]

/-- Past hidden unit 30 it vanishes. -/
theorem sumP_gt (j : Fin 128) (hj : 30 < j.val) : ∑ k : Fin 256, padX x k * padW1 w1 b1 k j = 0 := by
  refine Finset.sum_eq_zero fun k _ => ?_
  have hj' : ¬ j.val < 30 := by omega
  have hj'' : ¬ j.val = 30 := by omega
  simp only [padW1, dif_neg (fun h : _ ∧ j.val < 30 => hj' h.2), if_neg (fun h : _ ∧ j.val = 30 => hj'' h.2), zeroW_eq, mul_zero]

/-- The padded hidden layer: the plain hidden units, then a one, then zeros. -/
theorem hiddenP_lt (j : Fin 128) (hj : j.val < 30) :
    hiddenP (padX x) (padW1 w1 b1) j = hidden x w1 b1 ⟨j.val, hj⟩ := by
  unfold hiddenP hidden
  rw [sumP_lt x w1 b1 j hj]

theorem hiddenP_eq (j : Fin 128) (hj : j.val = 30) : hiddenP (padX x) (padW1 w1 b1) j = 1 := by
  unfold hiddenP
  rw [sumP_eq x w1 b1 j hj, zeroW_eq]
  exact max_eq_left zero_le_one

theorem hiddenP_gt (j : Fin 128) (hj : 30 < j.val) : hiddenP (padX x) (padW1 w1 b1) j = 0 := by
  unfold hiddenP
  rw [sumP_gt x w1 b1 j hj, zeroW_eq]
  exact max_self 0

/-- THE FOLD: the padded network's output `a < 16` is the plain network's. -/
theorem outP_eq (a : Fin 16) :
    outP (padX x) (padW1 w1 b1) (padW2 w2 b2) ⟨a.val, lt_trans a.isLt (by norm_num)⟩ = out x w1 b1 w2 b2 a := by
  unfold outP out
  have ha : (⟨a.val, lt_trans a.isLt (by norm_num)⟩ : Fin 128).val < 16 := a.isLt
  rw [sum_pad 30 128 (by norm_num) _ (fun j hj => by rw [hiddenP_gt x w1 b1 j hj, zero_mul])]
  congr 2
  congr 1
  · refine Finset.sum_congr rfl fun j _ => ?_
    have hj : (⟨j.val, lt_trans j.isLt (by norm_num)⟩ : Fin 128).val < 30 := j.isLt
    rw [hiddenP_lt x w1 b1 _ hj]
    simp only [padW2, dif_pos (And.intro hj ha)]
  · have h1 : ¬ (30 : Nat) < 30 := by omega
    rw [hiddenP_eq x w1 b1 _ rfl, one_mul]
    simp [padW2, a.isLt]

end Fold

end Cert.Anet.Spec

end
-- ==== Proof.KernelBody.lean ====
/-
  The kernel body's one stored value, read at an index.  On a block of 32768 rows the body forms
  X · W1ᵀ (the first weight matrix arrives transposed, 30 × 128), adds the bias row, clamps at zero, multiplies
  by W2ᵀ (16 × 30), adds the second bias row, applies tanh, doubles, and stores the TRANSPOSE, 16 × 32768.
  So the stored block at (a, p) is output `a` of the network on row `p` of the block.
-/
import proofs.«109628_g2000306519504181_pallasbulk_291_22_alg».proof.Proof.Gen.KernelIdeal.Skeleton
import proofs.«109628_g2000306519504181_pallasbulk_291_22_alg».proof.Proof.LibBlockReads
import proofs.«109628_g2000306519504181_pallasbulk_291_22_alg».proof.Proof.Spec
import Idealize.ShloMosaic.Lib.ValueLayout

open scoped BigOperators

noncomputable section

namespace Cert.KernelIdeal.Body

open Idealize.ShloMosaic Idealize.ShloMosaic.ValueIdx Cert.KernelIdeal Cert.KernelIdeal.Facts₀
open Cert.Anet.Spec Cert.Lib.BlockReads

/-- The hidden layer of the block at (p, j): the clamped sum over k of x(p, k) · w1ᵀ(j, k) plus the bias entry j. -/
theorem hidden_apply (v0 : FVec Ideal S32768x128 .f32) (v1 : FVec Ideal S30x128 .f32) (v4 : FVec Ideal S1x30 .f32)
    (p : Fin 32768) (j : Fin 30) :
    maximumf (addf (matmul dot_S32768x128_S30x128_S32768x30_1_1_0_0_n_n none v0
          (shapeCast S30x128 v1 shapeCasts_S30x128_S30x128) (constant S32768x30 .f32 0x00000000#32))
        (broadcastTo S32768x30 v4 broadcasts_S1x30_S32768x30))
      (broadcast S32768x30 (Scalar.ofBits (F := Ideal) .f32 0x00000000#32)) (ix2 p j)
    = hidden (fun k => v0 (ix2 p k)) (fun k j => v1 (ix2 j k)) (fun j => v4 (ix2 0 j)) j := by
  show max (matmul dot_S32768x128_S30x128_S32768x30_1_1_0_0_n_n none v0
        (shapeCast S30x128 v1 shapeCasts_S30x128_S30x128) (constant S32768x30 .f32 0x00000000#32) (ix2 p j)
      + broadcastTo S32768x30 v4 broadcasts_S1x30_S32768x30 (ix2 p j)) (Ideal.ofBits .f32 0x00000000#32) = _
  rw [shapeCast_self, matmul_zero_cols_apply _ rfl rfl rfl rfl rfl rfl, broadcast_row_apply]
  rfl

/-- The stored block at (a, p) is output `a` of the network on row `p`. -/
theorem pay_apply (v0 : FVec Ideal S32768x128 .f32) (v1 : FVec Ideal S30x128 .f32) (v4 : FVec Ideal S1x30 .f32)
    (v9 : FVec Ideal S16x30 .f32) (v12 : FVec Ideal S1x16 .f32) (a : Fin 16) (p : Fin 32768) :
    Gen.k0_pay1 (F := Ideal) v0 v1 v4 v9 v12 (ix2 a p)
      = out (fun k => v0 (ix2 p k)) (fun k j => v1 (ix2 j k)) (fun j => v4 (ix2 0 j)) (fun j a => v9 (ix2 a j))
          (fun a => v12 (ix2 0 a)) a := by
  unfold Gen.k0_pay1
  refine (transpose_ix2_apply _ _ a p).trans ?_
  show Ideal.tanh (matmul dot_S32768x30_S16x30_S32768x16_1_1_0_0_n_n none _
        (shapeCast S16x30 v9 shapeCasts_S16x30_S16x30) (constant S32768x16 .f32 0x00000000#32) (ix2 p a)
      + broadcastTo S32768x16 v12 broadcasts_S1x16_S32768x16 (ix2 p a)) * Ideal.ofBits .f32 0x40000000#32 = _
  rw [shapeCast_self v9, matmul_zero_cols_apply _ rfl rfl rfl rfl rfl rfl, broadcast_row_apply]
  unfold out
  refine congrArg (fun z => Ideal.tanh (z + v12 (ix2 0 a)) * twoW) (Finset.sum_congr rfl fun j _ => ?_)
  exact congrArg (· * v9 (ix2 a j)) (hidden_apply v0 v1 v4 p j)

end Cert.KernelIdeal.Body

end
-- ==== Proof.KernelBlocks.lean ====
/-
  The kernel program's result as one function of its arguments.  The region's output array is 16 × 131072, the
  network's result TRANSPOSED: grid point t writes columns [32768·t, 32768·(t+1)), the body's block computed from
  rows [32768·t, 32768·(t+1)) of x and from the whole (host-transposed) weight matrices and bias rows.  The four
  blocks tile the array, so after the run it holds the transposed result everywhere; the host's final transpose
  turns it into the network applied to every row of x.
-/
import proofs.«109628_g2000306519504181_pallasbulk_291_22_alg».proof.Proof.Gen.KernelIdeal.Frame
import proofs.«109628_g2000306519504181_pallasbulk_291_22_alg».proof.Proof.KernelBody
import Idealize.ShloMosaic.Lib.Pipeline.Value
import Idealize.ShloMosaic.Lib.StableHlo.Run
import Idealize.ShloMosaic.Lib.ValueLayout

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.Anet.Spec

variable (m : (ℓ : Loc nD τ sig) → Buf (Elt Ideal) ℓ) (ρ : Dev nD → PrngReg)

theorem offs_zero : (![0, 0] : Fin 2 → Nat) = fun _ => 0 := funext fun a => by fin_cases a <;> rfl

/-- The network applied to every row of the first argument, with the other four arguments as weights and biases. -/
def result (c : Dev nD) : S131072x16.Idx → EReal :=
  netArr (m ((c : Thread nD τ).loc main_arg0)) (m ((c : Thread nD τ).loc main_arg1)) (m ((c : Thread nD τ).loc main_arg2))
    (m ((c : Thread nD τ).loc main_arg3)) (m ((c : Thread nD τ).loc main_arg4))

/-- Its transpose: what the region's output array holds after the run. -/
def resultT (c : Dev nD) : S16x131072.Idx → EReal := fun i => result m c (ix2 (i 1) (i 0))

/-! ## The weight matrices as the region finds them: transposed by the host -/

theorem w1t_eq (c : Dev nD) : (V m c main_v0 : S30x128.Idx → EReal)
    = transpose S30x128 [1, 0] (m ((c : Thread nD τ).loc main_arg1)) Facts₀.transposes_S128x30_S30x128_1_0 := by
  show StableHlo.after hostOps0 (fun b => m (c, b)) (Proc.devRef .tc main_v0) = _
  after_results

theorem w2t_eq (c : Dev nD) : (V m c main_v1 : S16x30.Idx → EReal)
    = transpose S16x30 [1, 0] (m ((c : Thread nD τ).loc main_arg3)) Facts₀.transposes_S30x16_S16x30_1_0 := by
  show StableHlo.after hostOps0 (fun b => m (c, b)) (Proc.devRef .tc main_v1) = _
  after_results

/-! ## One grid point's block -/

/-- The printed index maps over the grid: the row block of x and the column block of the output move together, every
    other block index is zero. -/
theorem idx_facts : ∀ t : Fin cfg0.N, win0_0.index t (0 : Fin 2) = win0_5.index t (1 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) ≤ 3 :=
  (by decide +kernel : ∀ t : Fin grid0.N, _)

/-- Every column block of the output is some point's. -/
theorem idx_onto : ∀ q : Fin 4, ∃ t : Fin cfg0.N, win0_5.index t = ![0, q.val] :=
  (by decide +kernel : ∀ q : Fin 4, ∃ t : Fin grid0.N, win0_5.index t = ![0, q.val])

/-- What point t writes back is block t of the transposed result. -/
theorem flushed5_eq (c : Dev nD) (t : Fin cfg0.N) :
    (dats m 0 c).flushed 5 t = ((cfg0.win 5).blk t).view.read (Elt Ideal) (resultT m c) := by
  show (cfg0.win 5).cut (grid0.coords t) ((dats m 0 c).after 5 t) = _
  rw [after0_5]
  unfold out0_5
  rw [View.canon_unit_zero offs_zero]
  simp only [View.ld_unit_zero (S := S32768x128) offs_zero, View.ld_unit_zero (S := S30x128) offs_zero,
    View.ld_unit_zero (S := S1x30) offs_zero, View.ld_unit_zero (S := S16x30) offs_zero, View.ld_unit_zero (S := S1x16) offs_zero]
  obtain ⟨e00, e01, e10, e11, e20, e21, e30, e31, e40, e41, e50, e51⟩ := idx_facts t
  funext y
  show k0_pay1 (F := Ideal) (iblk m c 0 t) (iblk m c 1 t) (iblk m c 2 t) (iblk m c 3 t) (iblk m c 4 t) y
    = resultT m c (((cfg0.win 5).blk t).view.emb y)
  refine (congrArg (k0_pay1 (F := Ideal) (iblk m c 0 t) (iblk m c 1 t) (iblk m c 2 t) (iblk m c 3 t) (iblk m c 4 t)) (eq_ix2 y)).trans ?_
  refine (Body.pay_apply _ _ _ _ _ (y 0) (y 1)).trans ?_
  unfold resultT result netArr
  refine out_congr (fun k => ?_) (fun k j => ?_) (fun j => ?_) (fun j a => ?_) (fun a => ?_) ?_
  · show V m c main_arg0 (((cfg0.win 0).blk t).view.emb (ix2 (y 1) k)) = _
    rw [V_main_arg0]
    refine congrArg _ (funext fun a => Fin.ext ?_)
    match a with
    | ⟨0, _⟩ =>
      show win0_0.index t (0 : Fin 2) * 32768 + 1 * (y 1).val = win0_5.index t (1 : Fin 2) * 32768 + 1 * (y 1).val
      rw [e00]
    | ⟨1, _⟩ =>
      show win0_0.index t (1 : Fin 2) * 128 + 1 * k.val = k.val
      rw [e01]; omega
  · show V m c main_v0 (((cfg0.win 1).blk t).view.emb (ix2 j k)) = _
    rw [w1t_eq]
    refine transpose_apply _ _ _ _ _ fun b => ?_
    match b with
    | ⟨0, _⟩ =>
      show j.val = win0_1.index t (0 : Fin 2) * 30 + 1 * j.val
      rw [e10]; omega
    | ⟨1, _⟩ =>
      show k.val = win0_1.index t (1 : Fin 2) * 128 + 1 * k.val
      rw [e11]; omega
  · show V m c main_arg2 (((cfg0.win 2).blk t).view.emb (ix2 0 j)) = _
    rw [V_main_arg2]
    refine congrArg _ (funext fun a => Fin.ext ?_)
    match a with
    | ⟨0, _⟩ =>
      show win0_2.index t (0 : Fin 2) * 1 + 1 * 0 = 0
      rw [e20]
    | ⟨1, _⟩ =>
      show win0_2.index t (1 : Fin 2) * 30 + 1 * j.val = j.val
      rw [e21]; omega
  · show V m c main_v1 (((cfg0.win 3).blk t).view.emb (ix2 a j)) = _
    rw [w2t_eq]
    refine transpose_apply _ _ _ _ _ fun b => ?_
    match b with
    | ⟨0, _⟩ =>
      show a.val = win0_3.index t (0 : Fin 2) * 16 + 1 * a.val
      rw [e30]; omega
    | ⟨1, _⟩ =>
      show j.val = win0_3.index t (1 : Fin 2) * 30 + 1 * j.val
      rw [e31]; omega
  · show V m c main_arg4 (((cfg0.win 4).blk t).view.emb (ix2 0 a)) = _
    rw [V_main_arg4]
    refine congrArg _ (funext fun b => Fin.ext ?_)
    match b with
    | ⟨0, _⟩ =>
      show win0_4.index t (0 : Fin 2) * 1 + 1 * 0 = 0
      rw [e40]
    | ⟨1, _⟩ =>
      show win0_4.index t (1 : Fin 2) * 16 + 1 * a.val = a.val
      rw [e41]; omega
  · refine Fin.ext ?_
    show (y 0).val = win0_5.index t (0 : Fin 2) * 16 + 1 * (y 0).val
    rw [e50]; omega

/-! ## The four blocks tile the output array -/

/-- An index of the output array is in point t's block iff each coordinate is in the block's range. -/
theorem mem_blk5 (t : Fin cfg0.N) (i : S16x131072.Idx) :
    i ∈ ((cfg0.win 5).blk t).view.set ↔ ∀ a : Fin 2, win0_5.index t a * S16x32768.size a ≤ (i a).val
      ∧ (i a).val < win0_5.index t a * S16x32768.size a + S16x32768.size a := by
  show i ∈ ((View.whole main_v2).slice (win0_5.rect t)).set ↔ _
  rw [View.set_slice_whole, Rect.mem_set_unit]
  exact Iff.rfl

/-- Every index of the output array is in the block of the point its column falls in. -/
theorem cover5 (i : S16x131072.Idx) :
    ∃ t : Fin cfg0.N, (cfg0.win 5).flush t = true ∧ i ∈ ((cfg0.win 5).blk t).view.set := by
  have hi0 : (i 0).val < 16 := (i 0).isLt
  have hi1 : (i 1).val < 131072 := (i 1).isLt
  obtain ⟨t, ht⟩ := idx_onto ⟨(i 1).val / 32768, by omega⟩
  have q0 : win0_5.index t (0 : Fin 2) = 0 := congrFun ht 0
  have q1 : win0_5.index t (1 : Fin 2) = (i 1).val / 32768 := congrFun ht 1
  refine ⟨t, flush0_5 t, ?_⟩
  rw [mem_blk5]
  intro a
  match a with
  | ⟨0, _⟩ =>
    show win0_5.index t (0 : Fin 2) * 16 ≤ (i 0).val ∧ (i 0).val < win0_5.index t (0 : Fin 2) * 16 + 16
    omega
  | ⟨1, _⟩ =>
    show win0_5.index t (1 : Fin 2) * 32768 ≤ (i 1).val ∧ (i 1).val < win0_5.index t (1 : Fin 2) * 32768 + 32768
    omega

/-- The region's output array after the run is the transposed result. -/
theorem final5 (c : Dev nD) : (dats m 0 c).arrAt 5 cfg0.N = resultT m c :=
  (dats m 0 c).arrAt_eq_of_cover 5 (resultT m c) (fun t _ => flushed5_eq m c t) cover5

/-! ## The host's final transpose, and the run -/

/-- The result buffer after the lines that follow the region: the transpose of the region's output array. -/
theorem tail_eq (c : Dev nD) :
    (Pipeline.afterTail₀ cfgs (dats m) 0 (V0 m) [hostOps1] c main_v3 : S131072x16.Idx → EReal) = result m c := by
  unfold Pipeline.afterTail₀
  show StableHlo.after hostOps1 _ (Proc.devRef .tc main_v3) = _
  after_results
  have h := Pipeline.withArrays_arr spec0 launch0.win.arr_inj c (V0 m c) (fun w => (dats m 0 c).arrAt w cfg0.N) 5
  show transpose S131072x16 [1, 0] (Pipeline.withArrays spec0 c (V0 m c) (fun w => (dats m 0 c).arrAt w cfg0.N)
    (Proc.devRef .tc (Pipeline.arrRef spec0 5))) _ = _
  rw [h, final5]
  funext i
  refine (congrArg _ (eq_ix2 i)).trans ((transpose_ix2_apply _ _ (i 0) (i 1)).trans ?_)
  exact congrArg (result m c) (eq_ix2 i).symm

/-- Every weakly fair execution of the kernel program ends with the result buffer at the network applied to every row
    of x, and the arguments unchanged. -/
theorem run : θ_run defs (onTc (τ := τ) (main (F := Ideal))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).2 main_v3 (Pipeline.mem_restRefs_of main_v3 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c)))⟩)
    (run_main m ρ)

end Cert.KernelIdeal.Blocks

end
-- ==== Proof.RefBody.lean ====
/-
  The reference kernel body's one stored value, read at an index.  On a block of 1024 rows of the padded input the
  body forms Xp · W1p, clamps at zero, multiplies by W2p, applies tanh and doubles: the stored block at (p, c) is
  output `c` of the padded network on row `p` of the block.
-/
import proofs.«109628_g2000306519504181_pallasbulk_291_22_alg».proof.Proof.Gen.ReferenceIdeal.Skeleton
import proofs.«109628_g2000306519504181_pallasbulk_291_22_alg».proof.Proof.LibBlockReads
import proofs.«109628_g2000306519504181_pallasbulk_291_22_alg».proof.Proof.Spec
import Idealize.ShloMosaic.Lib.ValueLayout

open scoped BigOperators

noncomputable section

namespace Cert.ReferenceIdeal.Body

open Idealize.ShloMosaic Idealize.ShloMosaic.ValueIdx Cert.ReferenceIdeal Cert.ReferenceIdeal.Facts₀
open Cert.Anet.Spec Cert.Lib.BlockReads

/-- The hidden layer of the block at (p, j): the clamped sum over k of xp(p, k) · w1p(k, j). -/
theorem hiddenP_apply (v0 : FVec Ideal S1024x256 .f32) (v2 : FVec Ideal S256x128 .f32) (p : Fin 1024) (j : Fin 128) :
    maximumf (matmul dot_S1024x256_S256x128_S1024x128_1_0_0_1_n_n none
          (shapeCast S1024x256 v0 shapeCasts_S1024x256_S1024x256) (shapeCast S256x128 v2 shapeCasts_S256x128_S256x128)
          (constant S1024x128 .f32 0x00000000#32))
      (broadcast S1024x128 (Scalar.ofBits (F := Ideal) .f32 0x00000000#32)) (ix2 p j)
    = hiddenP (fun k => v0 (ix2 p k)) (fun k j => v2 (ix2 k j)) j := by
  show max (matmul dot_S1024x256_S256x128_S1024x128_1_0_0_1_n_n none
        (shapeCast S1024x256 v0 shapeCasts_S1024x256_S1024x256) (shapeCast S256x128 v2 shapeCasts_S256x128_S256x128)
        (constant S1024x128 .f32 0x00000000#32) (ix2 p j)) (Ideal.ofBits .f32 0x00000000#32) = _
  rw [shapeCast_self v0, shapeCast_self v2, matmul_zero_rows_apply _ rfl rfl rfl rfl rfl rfl]
  rfl

/-- The stored block at (p, c) is output `c` of the padded network on row `p`. -/
theorem payP_apply (v0 : FVec Ideal S1024x256 .f32) (v2 : FVec Ideal S256x128 .f32) (v7 : FVec Ideal S128x128 .f32)
    (p : Fin 1024) (c : Fin 128) :
    Gen.k0_pay1 (F := Ideal) v0 v2 v7 (ix2 p c)
      = outP (fun k => v0 (ix2 p k)) (fun k j => v2 (ix2 k j)) (fun j c => v7 (ix2 j c)) c := by
  unfold Gen.k0_pay1
  show Ideal.tanh (matmul dot_S1024x128_S128x128_S1024x128_1_0_0_1_n_n none _
        (shapeCast S128x128 v7 shapeCasts_S128x128_S128x128) (constant S1024x128 .f32 0x00000000#32) (ix2 p c))
      * Ideal.ofBits .f32 0x40000000#32 = _
  rw [shapeCast_self v7, matmul_zero_rows_apply _ rfl rfl rfl rfl rfl rfl]
  unfold outP
  refine congrArg (fun z => Ideal.tanh z * twoW) (Finset.sum_congr rfl fun j _ => ?_)
  exact congrArg (· * v7 (ix2 j c)) (hiddenP_apply v0 v2 p j)

end Cert.ReferenceIdeal.Body

end
-- ==== Proof.RefBlocks.lean ====
/-
  The reference program's result as one function of the padded arrays its host lines build.  The region's output
  array is 131072 × 128: grid point t writes rows [1024·t, 1024·(t+1)), the body's block computed from the same rows
  of the padded input and from the whole padded weight matrices.  The 128 blocks tile the array, so after the run it
  holds the padded network applied to every row; the host's final slice keeps its first 16 columns.
-/
import proofs.«109628_g2000306519504181_pallasbulk_291_22_alg».proof.Proof.Gen.ReferenceIdeal.Frame
import proofs.«109628_g2000306519504181_pallasbulk_291_22_alg».proof.Proof.RefBody
import Idealize.ShloMosaic.Lib.Pipeline.Value
import Idealize.ShloMosaic.Lib.StableHlo.Run
import Idealize.ShloMosaic.Lib.ValueLayout

set_option maxRecDepth 16384

noncomputable section

namespace Cert.ReferenceIdeal.Blocks

open Idealize.ShloMosaic Idealize.ShloMosaic.TcCoe Idealize.ShloMosaic.ValueIdx Idealize.SL.Sem
open Cert.ReferenceIdeal Cert.ReferenceIdeal.Gen Cert.Anet.Spec

variable (m : (ℓ : Loc nD τ sig) → Buf (Elt Ideal) ℓ) (ρ : Dev nD → PrngReg)

theorem offs_zero : (![0, 0] : Fin 2 → Nat) = fun _ => 0 := funext fun a => by fin_cases a <;> rfl

/-- The padded network applied to every row of the padded input, over the padded arrays as the region finds them. -/
def resultP (c : Dev nD) : S131072x128.Idx → EReal := fun i =>
  outP (fun k => (V m c main_v5 : S131072x256.Idx → EReal) (ix2 (i 0) k))
    (fun k j => (V m c main_v19 : S256x128.Idx → EReal) (ix2 k j))
    (fun j a => (V m c main_v29 : S128x128.Idx → EReal) (ix2 j a)) (i 1)

/-! ## One grid point's block -/

/-- The printed index maps over the grid: the row block of the padded input and of the output move together, every
    other block index is zero. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 127 :=
  (by decide +kernel : ∀ t : Fin grid0.N, _)

/-- Every row block of the output is some point's. -/
theorem idx_onto : ∀ q : Fin 128, ∃ t : Fin cfg0.N, win0_3.index t = ![q.val, 0] :=
  (by decide +kernel : ∀ q : Fin 128, ∃ t : Fin grid0.N, win0_3.index t = ![q.val, 0])

/-- What point t writes back is block t of the padded result. -/
theorem flushed3_eq (c : Dev nD) (t : Fin cfg0.N) :
    (dats m 0 c).flushed 3 t = ((cfg0.win 3).blk t).view.read (Elt Ideal) (resultP m c) := by
  show (cfg0.win 3).cut (grid0.coords t) ((dats m 0 c).after 3 t) = _
  rw [after0_3]
  unfold out0_3
  rw [View.canon_unit_zero offs_zero]
  simp only [View.ld_unit_zero (S := S1024x256) offs_zero, View.ld_unit_zero (S := S256x128) offs_zero,
    View.ld_unit_zero (S := S128x128) offs_zero]
  obtain ⟨e00, e01, e10, e11, e20, e21, e31, e30⟩ := idx_facts t
  funext y
  show k0_pay1 (F := Ideal) (iblk m c 0 t) (iblk m c 1 t) (iblk m c 2 t) y
    = resultP m c (((cfg0.win 3).blk t).view.emb y)
  refine (congrArg (k0_pay1 (F := Ideal) (iblk m c 0 t) (iblk m c 1 t) (iblk m c 2 t)) (eq_ix2 y)).trans ?_
  refine (Body.payP_apply _ _ _ (y 0) (y 1)).trans ?_
  unfold resultP
  have hx : ∀ k, (iblk m c 0 t) (ix2 (y 0) k)
      = (V m c main_v5 : S131072x256.Idx → EReal) (ix2 ((((cfg0.win 3).blk t).view.emb y) 0) k) := fun k => by
    show V m c main_v5 (((cfg0.win 0).blk t).view.emb (ix2 (y 0) k)) = _
    refine congrArg _ (funext fun a => Fin.ext ?_)
    match a with
    | ⟨0, _⟩ =>
      show win0_0.index t (0 : Fin 2) * 1024 + 1 * (y 0).val = win0_3.index t (0 : Fin 2) * 1024 + 1 * (y 0).val
      rw [e00]
    | ⟨1, _⟩ =>
      show win0_0.index t (1 : Fin 2) * 256 + 1 * k.val = k.val
      rw [e01]; omega
  have hw1 : ∀ k j, (iblk m c 1 t) (ix2 k j) = (V m c main_v19 : S256x128.Idx → EReal) (ix2 k j) := fun k j => by
    show V m c main_v19 (((cfg0.win 1).blk t).view.emb (ix2 k j)) = _
    refine congrArg _ (funext fun a => Fin.ext ?_)
    match a with
    | ⟨0, _⟩ =>
      show win0_1.index t (0 : Fin 2) * 256 + 1 * k.val = k.val
      rw [e10]; omega
    | ⟨1, _⟩ =>
      show win0_1.index t (1 : Fin 2) * 128 + 1 * j.val = j.val
      rw [e11]; omega
  have hw2 : ∀ j a, (iblk m c 2 t) (ix2 j a) = (V m c main_v29 : S128x128.Idx → EReal) (ix2 j a) := fun j a => by
    show V m c main_v29 (((cfg0.win 2).blk t).view.emb (ix2 j a)) = _
    refine congrArg _ (funext fun b => Fin.ext ?_)
    match b with
    | ⟨0, _⟩ =>
      show win0_2.index t (0 : Fin 2) * 128 + 1 * j.val = j.val
      rw [e20]; omega
    | ⟨1, _⟩ =>
      show win0_2.index t (1 : Fin 2) * 128 + 1 * a.val = a.val
      rw [e21]; omega
  have hc : (y 1) = (((cfg0.win 3).blk t).view.emb y) 1 := by
    refine Fin.ext ?_
    show (y 1).val = win0_3.index t (1 : Fin 2) * 128 + 1 * (y 1).val
    rw [e31]; omega
  rw [← hc]
  exact congrArg (fun f => outP f _ _ (y 1)) (funext hx) |>.trans
    ((congrArg (fun f => outP _ f _ (y 1)) (funext fun k => funext (hw1 k))).trans
      (congrArg (fun f => outP _ _ f (y 1)) (funext fun j => funext (hw2 j))))

/-! ## The 128 blocks tile the output array -/

/-- An index of the output array is in point t's block iff each coordinate is in the block's range. -/
theorem mem_blk3 (t : Fin cfg0.N) (i : S131072x128.Idx) :
    i ∈ ((cfg0.win 3).blk t).view.set ↔ ∀ a : Fin 2, win0_3.index t a * S1024x128.size a ≤ (i a).val
      ∧ (i a).val < win0_3.index t a * S1024x128.size a + S1024x128.size a := by
  show i ∈ ((View.whole main_v30).slice (win0_3.rect t)).set ↔ _
  rw [View.set_slice_whole, Rect.mem_set_unit]
  exact Iff.rfl

/-- Every index of the output array is in the block of the point its row falls in. -/
theorem cover3 (i : S131072x128.Idx) :
    ∃ t : Fin cfg0.N, (cfg0.win 3).flush t = true ∧ i ∈ ((cfg0.win 3).blk t).view.set := by
  have hi0 : (i 0).val < 131072 := (i 0).isLt
  have hi1 : (i 1).val < 128 := (i 1).isLt
  obtain ⟨t, ht⟩ := idx_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk3]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 128 ≤ (i 1).val ∧ (i 1).val < win0_3.index t (1 : Fin 2) * 128 + 128
    omega

/-- The region's output array after the run is the padded result. -/
theorem final3 (c : Dev nD) : (dats m 0 c).arrAt 3 cfg0.N = resultP m c :=
  (dats m 0 c).arrAt_eq_of_cover 3 (resultP m c) (fun t _ => flushed3_eq m c t) cover3

/-! ## The host's final slice, and the run -/

/-- The first 16 columns of the padded result. -/
def resultS (c : Dev nD) : S131072x16.Idx → EReal := fun i =>
  resultP m c (ix2 (i 0) ⟨(i 1).val, lt_trans (i 1).isLt (by norm_num)⟩)

/-- The result buffer after the lines that follow the region: the slice of the region's output array. -/
theorem tail_eq (c : Dev nD) :
    (Pipeline.afterTail₀ cfgs (dats m) 0 (V0 m) [hostOps1] c main_v31 : S131072x16.Idx → EReal) = resultS m c := by
  unfold Pipeline.afterTail₀
  show StableHlo.after hostOps1 _ (Proc.devRef .tc main_v31) = _
  after_results
  have h := Pipeline.withArrays_arr spec0 launch0.win.arr_inj c (V0 m c) (fun w => (dats m 0 c).arrAt w cfg0.N) 3
  show extractStridedSlice S131072x16 ![0, 0] (Pipeline.withArrays spec0 c (V0 m c) (fun w => (dats m 0 c).arrAt w cfg0.N)
    (Proc.devRef .tc (Pipeline.arrRef spec0 3))) _ = _
  rw [h, final3]
  funext i
  unfold resultS
  refine extractStridedSlice_apply _ _ _ _ _ fun a => ?_
  match a with
  | ⟨0, _⟩ => show (i 0).val = 0 + (i 0).val; omega
  | ⟨1, _⟩ => show (i 1).val = 0 + (i 1).val; omega

/-- Every weakly fair execution of the reference program ends with the result buffer at the first 16 columns of the
    padded result, and the arguments unchanged. -/
theorem run : θ_run defs (onTc (τ := τ) (main (F := Ideal))) ⟨m, fun _ => 0, ρ⟩ (fun r => ∀ c : Dev nD,
      r.2.mem ((c.tc : Thread nD τ).loc main_v31) = resultS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).2 main_v31 (Pipeline.mem_restRefs_of main_v31 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.ReferenceIdeal.Blocks

end
-- ==== Proof.LibScatterSet.lean ====
/-
  A scatter whose body returns the update (`x.at[…].set(v)`), read at one index of its result.

  The host's scatter is a left fold over the update indices in row-major order, each step overwriting the
  element the update index lands on.  When every update index `j` lands inside the operand, at `emb j`, and
  `emb` is injective, the fold read at one element is decided by whether some update lands there: the element
  `emb j` ends at the update's element `j`, and an element no update lands on keeps the operand's value.
-/
import Idealize.ShloMosaic.PureOps.ShapeOps

namespace Idealize.ShloMosaic.ScatterSet

open Idealize.ShloMosaic

variable {ι κ α : Type} [DecidableEq κ]

/-- One step of an overwriting fold: element `e n` becomes `v n`, the others stay. -/
def step (e : ι → κ) (v : ι → α) (r : κ → α) (n : ι) : κ → α :=
  fun i' => if i' = e n then v n else r i'

/-- An element that no index of the list lands on keeps its initial value. -/
theorem foldl_step_miss (e : ι → κ) (v : ι → α) (i : κ) :
    ∀ (l : List ι) (x : κ → α), (∀ n ∈ l, e n ≠ i) → l.foldl (step e v) x i = x i := by
  intro l
  induction l with
  | nil => intro x _; rfl
  | cons a l ih =>
    intro x h
    rw [List.foldl_cons, ih _ (fun n hn => h n (List.mem_cons_of_mem _ hn))]
    unfold step
    rw [if_neg (fun hi => h a (List.mem_cons_self ..) hi.symm)]

/-- The element an index of a duplicate-free list lands on ends at that index's value, when the landing map is
    injective. -/
theorem foldl_step_hit (e : ι → κ) (he : Function.Injective e) (v : ι → α) (n0 : ι) :
    ∀ (l : List ι) (x : κ → α), l.Nodup → n0 ∈ l → l.foldl (step e v) x (e n0) = v n0 := by
  intro l
  induction l with
  | nil => intro x _ h; exact absurd h (List.not_mem_nil)
  | cons a l ih =>
    intro x hnd hmem
    rw [List.foldl_cons]
    rcases List.mem_cons.mp hmem with rfl | hl
    · rw [foldl_step_miss e v (e n0) l _ (fun n hn hne => (List.nodup_cons.mp hnd).1 (he hne ▸ hn))]
      unfold step
      rw [if_pos rfl]
    · exact ih _ (List.nodup_cons.mp hnd).2 hl

variable {s si u : Shape} {w : Nat}

/-- The overwriting scatter as the fold of `step`, when every update index lands inside the operand, at `emb`. -/
theorem scatter_eq_foldl (d : ScatterDims s si u) (x : s.Idx → α) (idx : IVec si w) (upd : u.Idx → α)
    (emb : u.Idx → s.Idx) (hemb : ∀ j, d.resultIdx? j idx = some (emb j)) :
    Host.scatter d (fun _ b => b) x idx upd
      = (List.finRange u.numel).foldl (step (fun n => emb (u.rowMajor.symm n)) (fun n => upd (u.rowMajor.symm n))) x := by
  unfold Host.scatter
  congr 1
  funext r n
  rw [hemb]
  rfl

/-- The element update index `j` lands on ends at the update's element `j`. -/
theorem scatter_at_emb (d : ScatterDims s si u) (x : s.Idx → α) (idx : IVec si w) (upd : u.Idx → α)
    (emb : u.Idx → s.Idx) (hemb : ∀ j, d.resultIdx? j idx = some (emb j)) (hinj : Function.Injective emb) (j : u.Idx) :
    Host.scatter d (fun _ b => b) x idx upd (emb j) = upd j := by
  rw [scatter_eq_foldl d x idx upd emb hemb]
  have h := foldl_step_hit (fun n => emb (u.rowMajor.symm n)) (fun a b hab => u.rowMajor.symm.injective (hinj hab))
    (fun n => upd (u.rowMajor.symm n)) (u.rowMajor j) (List.finRange u.numel) x (List.nodup_finRange _) (List.mem_finRange _)
  simpa using h

/-- An element no update index lands on keeps the operand's value. -/
theorem scatter_off_emb (d : ScatterDims s si u) (x : s.Idx → α) (idx : IVec si w) (upd : u.Idx → α)
    (emb : u.Idx → s.Idx) (hemb : ∀ j, d.resultIdx? j idx = some (emb j)) (i : s.Idx) (hoff : ∀ j, emb j ≠ i) :
    Host.scatter d (fun _ b => b) x idx upd i = x i := by
  rw [scatter_eq_foldl d x idx upd emb hemb]
  exact foldl_step_miss _ _ i _ x (fun n _ => hoff _)

end Idealize.ShloMosaic.ScatterSet
-- ==== Proof.RefScatters.lean ====
/-
  The seven overwriting scatters that build the reference's padded operands, each read at an index by its
  coordinates.

  Every one of them writes a block of updates at ONE literal start position: update index `j` lands on the operand
  index "start + window coordinate of `j`", always inside the operand, and distinct update indices land on distinct
  elements.  So the scatter read at `(p, q)` is the update's element when `(p, q)` lies in the rectangle the block
  covers, and the operand's element otherwise.
-/
import proofs.«109628_g2000306519504181_pallasbulk_291_22_alg».proof.ReferenceIdeal
import proofs.«109628_g2000306519504181_pallasbulk_291_22_alg».proof.Proof.Gen.ReferenceIdeal
import proofs.«109628_g2000306519504181_pallasbulk_291_22_alg».proof.Proof.LibScatterSet
import Idealize.ShloMosaic.Lib.ValueIdx

noncomputable section

namespace Cert.ReferenceIdeal.Padded

open Idealize.ShloMosaic Idealize.ShloMosaic.ValueIdx Idealize.ShloMosaic.ScatterSet Cert.ReferenceIdeal

/-- An update index lands on `e` when start plus window coordinate is `e`'s coordinate on every axis. -/
theorem resultIdx?_eq_some {s si u : Shape} {w : Nat} (d : ScatterDims s si u) (j : u.Idx) (idx : IVec si w) (e : s.Idx)
    (h : ∀ a, d.start j idx a + d.window j a = ((e a).val : Int)) : d.resultIdx? j idx = some e := by
  unfold ScatterDims.resultIdx?
  rw [dif_pos (fun a => by rw [h a]; exact ⟨Int.natCast_nonneg _, by exact_mod_cast (e a).isLt⟩)]
  congr 1
  funext a
  apply Fin.ext
  simp only [h a, Int.toNat_natCast]

/-! ## The index operands -/

/-- A scalar word broadcast to the one-component index vector is that word. -/
theorem idxS1_apply (a : BitVec 32) (k : S1.Idx) :
    broadcastInDim S1 ![] Gen.bcast_S_S1 (constantI S_ 32 a) k = a := rfl

/-- Two broadcast scalar words laid end to end: component 0 is the first, component 1 the second. -/
theorem idxS2_apply (a b : BitVec 32) (k : S2.Idx) :
    concatenate S2 0 [⟨S1, broadcastInDim S1 ![] Gen.bcast_S_S1 (constantI S_ 32 a)⟩,
      ⟨S1, broadcastInDim S1 ![] Gen.bcast_S_S1 (constantI S_ 32 b)⟩] Gen.concatenates_S1_S1_S2_d0 k
      = if (k 0).val = 0 then a else b := by
  rw [eq_ix1 k]
  generalize k 0 = q
  fin_cases q <;> rfl

variable [Facts₀]

/-! ## Where each update index lands -/

/-- A 131072 × 128 block written at (0, 0) of a 131072 × 256 array. -/
def emb1 (j : S131072x128.Idx) : S131072x256.Idx :=
  ix2 ⟨(j 0).val, by have := idx2_lt0 j; omega⟩ ⟨(j 1).val, by have := idx2_lt1 j; omega⟩
/-- A column of 131072 entries written in column 128 of a 131072 × 256 array. -/
def emb2 (j : S131072.Idx) : S131072x256.Idx :=
  ix2 ⟨(j 0).val, (j 0).isLt⟩ ⟨128, by decide⟩
/-- A 128 × 30 block written at (0, 0) of a 256 × 128 array. -/
def emb3 (j : S128x30.Idx) : S256x128.Idx :=
  ix2 ⟨(j 0).val, by have := idx2_lt0 j; omega⟩ ⟨(j 1).val, by have := idx2_lt1 j; omega⟩
/-- A row of 30 entries written in row 128, from column 0, of a 256 × 128 array. -/
def emb4 (j : S30.Idx) : S256x128.Idx :=
  ix2 ⟨128, by decide⟩ ⟨(j 0).val, by have : (j 0).val < 30 := (j 0).isLt; omega⟩
/-- One entry written at (128, 30) of a 256 × 128 array. -/
def emb5 (j : S_.Idx) : S256x128.Idx :=
  ix2 ⟨128, by decide⟩ ⟨30, by decide⟩
/-- A 30 × 16 block written at (0, 0) of a 128 × 128 array. -/
def emb6 (j : S30x16.Idx) : S128x128.Idx :=
  ix2 ⟨(j 0).val, by have := idx2_lt0 j; omega⟩ ⟨(j 1).val, by have := idx2_lt1 j; omega⟩
/-- A row of 16 entries written in row 30, from column 0, of a 128 × 128 array. -/
def emb7 (j : S16.Idx) : S128x128.Idx :=
  ix2 ⟨30, by decide⟩ ⟨(j 0).val, by have : (j 0).val < 16 := (j 0).isLt; omega⟩

theorem hemb1 (idx : IVec S1 32) (hidx : ∀ k, (idx k).toInt = 0) (j : S131072x128.Idx) :
    scatter_S131072x256_S1_S131072x128_01_n_1_0.resultIdx? j idx = some (emb1 j) := by
  apply resultIdx?_eq_some
  intro a
  fin_cases a <;> simp [ScatterDims.start, ScatterDims.window, ScatterDims.siIdx, scatter_S131072x256_S1_S131072x128_01_n_1_0, ScatterDims.sKept, Shape.kept, hidx] <;> rfl

theorem hemb2 (idx : IVec S1 32) (hidx : ∀ k, (idx k).toInt = 128) (j : S131072.Idx) :
    scatter_S131072x256_S1_S131072_0_1_1_0.resultIdx? j idx = some (emb2 j) := by
  apply resultIdx?_eq_some
  intro a
  fin_cases a <;> simp [ScatterDims.start, ScatterDims.window, ScatterDims.siIdx, scatter_S131072x256_S1_S131072_0_1_1_0, ScatterDims.sKept, Shape.kept, hidx] <;> rfl

theorem hemb3 (idx : IVec S2 32) (hidx : ∀ k, (idx k).toInt = 0) (j : S128x30.Idx) :
    scatter_S256x128_S2_S128x30_01_n_01_0.resultIdx? j idx = some (emb3 j) := by
  apply resultIdx?_eq_some
  intro a
  fin_cases a <;> simp [ScatterDims.start, ScatterDims.window, ScatterDims.siIdx, scatter_S256x128_S2_S128x30_01_n_01_0, ScatterDims.sKept, Shape.kept, hidx] <;> rfl

theorem hemb4 (idx : IVec S2 32) (hidx : ∀ k, (idx k).toInt = if (k 0).val = 0 then 128 else 0) (j : S30.Idx) :
    scatter_S256x128_S2_S30_0_0_01_0.resultIdx? j idx = some (emb4 j) := by
  apply resultIdx?_eq_some
  intro a
  fin_cases a <;> simp [ScatterDims.start, ScatterDims.window, ScatterDims.siIdx, scatter_S256x128_S2_S30_0_0_01_0, ScatterDims.sKept, Shape.kept, hidx] <;> rfl

theorem hemb5 (idx : IVec S2 32) (hidx : ∀ k, (idx k).toInt = if (k 0).val = 0 then 128 else 30) (j : S_.Idx) :
    scatter_S256x128_S2_S__n_01_01_0.resultIdx? j idx = some (emb5 j) := by
  apply resultIdx?_eq_some
  intro a
  fin_cases a <;> simp [ScatterDims.start, ScatterDims.window, ScatterDims.siIdx, scatter_S256x128_S2_S__n_01_01_0, ScatterDims.sKept, Shape.kept, hidx] <;> rfl

theorem hemb6 (idx : IVec S2 32) (hidx : ∀ k, (idx k).toInt = 0) (j : S30x16.Idx) :
    scatter_S128x128_S2_S30x16_01_n_01_0.resultIdx? j idx = some (emb6 j) := by
  apply resultIdx?_eq_some
  intro a
  fin_cases a <;> simp [ScatterDims.start, ScatterDims.window, ScatterDims.siIdx, scatter_S128x128_S2_S30x16_01_n_01_0, ScatterDims.sKept, Shape.kept, hidx] <;> rfl

theorem hemb7 (idx : IVec S2 32) (hidx : ∀ k, (idx k).toInt = if (k 0).val = 0 then 30 else 0) (j : S16.Idx) :
    scatter_S128x128_S2_S16_0_0_01_0.resultIdx? j idx = some (emb7 j) := by
  apply resultIdx?_eq_some
  intro a
  fin_cases a <;> simp [ScatterDims.start, ScatterDims.window, ScatterDims.siIdx, scatter_S128x128_S2_S16_0_0_01_0, ScatterDims.sKept, Shape.kept, hidx] <;> rfl

/-! ## Distinct update indices land on distinct elements -/

theorem emb1_inj : Function.Injective emb1 := by
  intro j j' h
  have h0 : (j 0).val = (j' 0).val := congrArg (fun i : S131072x256.Idx => (i 0).val) h
  have h1 : (j 1).val = (j' 1).val := congrArg (fun i : S131072x256.Idx => (i 1).val) h
  rw [eq_ix2 j, eq_ix2 j', Fin.ext h0, Fin.ext h1]

theorem emb2_inj : Function.Injective emb2 := by
  intro j j' h
  have h0 : (j 0).val = (j' 0).val := congrArg (fun i : S131072x256.Idx => (i 0).val) h
  rw [eq_ix1 j, eq_ix1 j', Fin.ext h0]

theorem emb3_inj : Function.Injective emb3 := by
  intro j j' h
  have h0 : (j 0).val = (j' 0).val := congrArg (fun i : S256x128.Idx => (i 0).val) h
  have h1 : (j 1).val = (j' 1).val := congrArg (fun i : S256x128.Idx => (i 1).val) h
  rw [eq_ix2 j, eq_ix2 j', Fin.ext h0, Fin.ext h1]

theorem emb4_inj : Function.Injective emb4 := by
  intro j j' h
  have h0 : (j 0).val = (j' 0).val := congrArg (fun i : S256x128.Idx => (i 1).val) h
  rw [eq_ix1 j, eq_ix1 j', Fin.ext h0]

theorem emb5_inj : Function.Injective emb5 := by
  intro j j' _
  rw [eq_ix0 j, eq_ix0 j']

theorem emb6_inj : Function.Injective emb6 := by
  intro j j' h
  have h0 : (j 0).val = (j' 0).val := congrArg (fun i : S128x128.Idx => (i 0).val) h
  have h1 : (j 1).val = (j' 1).val := congrArg (fun i : S128x128.Idx => (i 1).val) h
  rw [eq_ix2 j, eq_ix2 j', Fin.ext h0, Fin.ext h1]

theorem emb7_inj : Function.Injective emb7 := by
  intro j j' h
  have h0 : (j 0).val = (j' 0).val := congrArg (fun i : S128x128.Idx => (i 1).val) h
  rw [eq_ix1 j, eq_ix1 j', Fin.ext h0]

/-! ## Each scatter read at `(p, q)` -/

variable {α : Type}

/-- The block at (0, 0): columns below 128 hold the update, the others the operand. -/
theorem scatter1_apply (x : S131072x256.Idx → α) (idx : IVec S1 32) (hidx : ∀ k, (idx k).toInt = 0)
    (upd : S131072x128.Idx → α) (r : Fin 131072) (k : Fin 256) :
    Host.scatter scatter_S131072x256_S1_S131072x128_01_n_1_0 (fun _ b => b) x idx upd (ix2 r k)
      = if h : k.val < 128 then upd (ix2 r ⟨k.val, h⟩) else x (ix2 r k) := by
  by_cases h : k.val < 128
  · rw [dif_pos h]
    exact scatter_at_emb _ x idx upd emb1 (hemb1 idx hidx) emb1_inj (ix2 r ⟨k.val, h⟩)
  · rw [dif_neg h]
    refine scatter_off_emb _ x idx upd emb1 (hemb1 idx hidx) _ (fun j hj => h ?_)
    have h1 : (j 1).val = k.val := congrArg (fun i : S131072x256.Idx => (i 1).val) hj
    have := idx2_lt1 j
    omega

/-- Column 128: it holds the update, the other columns the operand. -/
theorem scatter2_apply (x : S131072x256.Idx → α) (idx : IVec S1 32) (hidx : ∀ k, (idx k).toInt = 128)
    (upd : S131072.Idx → α) (r : Fin 131072) (k : Fin 256) :
    Host.scatter scatter_S131072x256_S1_S131072_0_1_1_0 (fun _ b => b) x idx upd (ix2 r k)
      = if k.val = 128 then upd (ix1 r) else x (ix2 r k) := by
  by_cases h : k.val = 128
  · rw [if_pos h]
    have e : (ix2 r k : S131072x256.Idx) = emb2 (ix1 r) := by
      rw [show k = ⟨128, by decide⟩ from Fin.ext h]; rfl
    rw [e]
    exact scatter_at_emb _ x idx upd emb2 (hemb2 idx hidx) emb2_inj (ix1 r)
  · rw [if_neg h]
    refine scatter_off_emb _ x idx upd emb2 (hemb2 idx hidx) _ (fun j hj => h ?_)
    exact (congrArg (fun i : S131072x256.Idx => (i 1).val) hj).symm

/-- The block at (0, 0): rows below 128 and columns below 30 hold the update, the rest the operand. -/
theorem scatter3_apply (x : S256x128.Idx → α) (idx : IVec S2 32) (hidx : ∀ k, (idx k).toInt = 0)
    (upd : S128x30.Idx → α) (p : Fin 256) (q : Fin 128) :
    Host.scatter scatter_S256x128_S2_S128x30_01_n_01_0 (fun _ b => b) x idx upd (ix2 p q)
      = if h : p.val < 128 ∧ q.val < 30 then upd (ix2 ⟨p.val, h.1⟩ ⟨q.val, h.2⟩) else x (ix2 p q) := by
  by_cases h : p.val < 128 ∧ q.val < 30
  · rw [dif_pos h]
    exact scatter_at_emb _ x idx upd emb3 (hemb3 idx hidx) emb3_inj (ix2 ⟨p.val, h.1⟩ ⟨q.val, h.2⟩)
  · rw [dif_neg h]
    refine scatter_off_emb _ x idx upd emb3 (hemb3 idx hidx) _ (fun j hj => h ?_)
    have h0 : (j 0).val = p.val := congrArg (fun i : S256x128.Idx => (i 0).val) hj
    have h1 : (j 1).val = q.val := congrArg (fun i : S256x128.Idx => (i 1).val) hj
    have := idx2_lt0 j
    have := idx2_lt1 j
    omega

/-- Row 128, columns below 30: they hold the update, the rest the operand. -/
theorem scatter4_apply (x : S256x128.Idx → α) (idx : IVec S2 32)
    (hidx : ∀ k, (idx k).toInt = if (k 0).val = 0 then 128 else 0)
    (upd : S30.Idx → α) (p : Fin 256) (q : Fin 128) :
    Host.scatter scatter_S256x128_S2_S30_0_0_01_0 (fun _ b => b) x idx upd (ix2 p q)
      = if h : p.val = 128 ∧ q.val < 30 then upd (ix1 ⟨q.val, h.2⟩) else x (ix2 p q) := by
  by_cases h : p.val = 128 ∧ q.val < 30
  · rw [dif_pos h]
    have e : (ix2 p q : S256x128.Idx) = emb4 (ix1 ⟨q.val, h.2⟩) := by
      funext a
      match a with
      | ⟨0, _⟩ => apply Fin.ext; exact h.1
      | ⟨1, _⟩ => rfl
    rw [e]
    exact scatter_at_emb _ x idx upd emb4 (hemb4 idx hidx) emb4_inj (ix1 ⟨q.val, h.2⟩)
  · rw [dif_neg h]
    refine scatter_off_emb _ x idx upd emb4 (hemb4 idx hidx) _ (fun j hj => h ?_)
    have h0 : 128 = p.val := congrArg (fun i : S256x128.Idx => (i 0).val) hj
    have h1 : (j 0).val = q.val := congrArg (fun i : S256x128.Idx => (i 1).val) hj
    have : (j 0).val < 30 := (j 0).isLt
    omega

/-- The entry (128, 30): it holds the update, the rest the operand. -/
theorem scatter5_apply (x : S256x128.Idx → α) (idx : IVec S2 32)
    (hidx : ∀ k, (idx k).toInt = if (k 0).val = 0 then 128 else 30)
    (upd : S_.Idx → α) (p : Fin 256) (q : Fin 128) :
    Host.scatter scatter_S256x128_S2_S__n_01_01_0 (fun _ b => b) x idx upd (ix2 p q)
      = if p.val = 128 ∧ q.val = 30 then upd ix0 else x (ix2 p q) := by
  by_cases h : p.val = 128 ∧ q.val = 30
  · rw [if_pos h]
    have e : (ix2 p q : S256x128.Idx) = emb5 ix0 := by
      rw [show p = ⟨128, by decide⟩ from Fin.ext h.1, show q = ⟨30, by decide⟩ from Fin.ext h.2]; rfl
    rw [e]
    exact scatter_at_emb _ x idx upd emb5 (hemb5 idx hidx) emb5_inj ix0
  · rw [if_neg h]
    refine scatter_off_emb _ x idx upd emb5 (hemb5 idx hidx) _ (fun j hj => h ?_)
    have h0 : 128 = p.val := congrArg (fun i : S256x128.Idx => (i 0).val) hj
    have h1 : 30 = q.val := congrArg (fun i : S256x128.Idx => (i 1).val) hj
    exact ⟨h0.symm, h1.symm⟩

/-- The block at (0, 0): rows below 30 and columns below 16 hold the update, the rest the operand. -/
theorem scatter6_apply (x : S128x128.Idx → α) (idx : IVec S2 32) (hidx : ∀ k, (idx k).toInt = 0)
    (upd : S30x16.Idx → α) (p : Fin 128) (q : Fin 128) :
    Host.scatter scatter_S128x128_S2_S30x16_01_n_01_0 (fun _ b => b) x idx upd (ix2 p q)
      = if h : p.val < 30 ∧ q.val < 16 then upd (ix2 ⟨p.val, h.1⟩ ⟨q.val, h.2⟩) else x (ix2 p q) := by
  by_cases h : p.val < 30 ∧ q.val < 16
  · rw [dif_pos h]
    exact scatter_at_emb _ x idx upd emb6 (hemb6 idx hidx) emb6_inj (ix2 ⟨p.val, h.1⟩ ⟨q.val, h.2⟩)
  · rw [dif_neg h]
    refine scatter_off_emb _ x idx upd emb6 (hemb6 idx hidx) _ (fun j hj => h ?_)
    have h0 : (j 0).val = p.val := congrArg (fun i : S128x128.Idx => (i 0).val) hj
    have h1 : (j 1).val = q.val := congrArg (fun i : S128x128.Idx => (i 1).val) hj
    have := idx2_lt0 j
    have := idx2_lt1 j
    omega

/-- Row 30, columns below 16: they hold the update, the rest the operand. -/
theorem scatter7_apply (x : S128x128.Idx → α) (idx : IVec S2 32)
    (hidx : ∀ k, (idx k).toInt = if (k 0).val = 0 then 30 else 0)
    (upd : S16.Idx → α) (p : Fin 128) (q : Fin 128) :
    Host.scatter scatter_S128x128_S2_S16_0_0_01_0 (fun _ b => b) x idx upd (ix2 p q)
      = if h : p.val = 30 ∧ q.val < 16 then upd (ix1 ⟨q.val, h.2⟩) else x (ix2 p q) := by
  by_cases h : p.val = 30 ∧ q.val < 16
  · rw [dif_pos h]
    have e : (ix2 p q : S128x128.Idx) = emb7 (ix1 ⟨q.val, h.2⟩) := by
      funext a
      match a with
      | ⟨0, _⟩ => apply Fin.ext; exact h.1
      | ⟨1, _⟩ => rfl
    rw [e]
    exact scatter_at_emb _ x idx upd emb7 (hemb7 idx hidx) emb7_inj (ix1 ⟨q.val, h.2⟩)
  · rw [dif_neg h]
    refine scatter_off_emb _ x idx upd emb7 (hemb7 idx hidx) _ (fun j hj => h ?_)
    have h0 : 30 = p.val := congrArg (fun i : S128x128.Idx => (i 0).val) hj
    have h1 : (j 0).val = q.val := congrArg (fun i : S128x128.Idx => (i 1).val) hj
    have : (j 0).val < 16 := (j 0).isLt
    omega

end Cert.ReferenceIdeal.Padded
-- ==== Proof.RefPadded.lean ====
/-
  The reference's three padded operands, read at an index.

  Before its kernel call the reference builds, from zero arrays and by overwriting scatters,
    xp  = [ x | 1 | 0 … 0 ]                      (131072 × 256: x in columns 0 … 127, ones in column 128),
    w1p = [ w1 ; b1 ; 0 ] with a 1 at (128, 30)   (256 × 128: w1 in rows 0 … 127 and columns 0 … 29, b1 in row 128),
    w2p = [ w2 ; b2 ; 0 ]                         (128 × 128: w2 in rows 0 … 29 and columns 0 … 15, b2 in row 30),
  so that the two biases ride along in the matrix products.  Each is stated here entry by entry.
-/
import proofs.«109628_g2000306519504181_pallasbulk_291_22_alg».proof.Proof.Gen.ReferenceIdeal.Frame
import proofs.«109628_g2000306519504181_pallasbulk_291_22_alg».proof.Proof.RefScatters
import Idealize.ShloMosaic.Lib.StableHlo.Run
import Idealize.ShloMosaic.Lib.Pipeline.Value

noncomputable section

namespace Cert.ReferenceIdeal.Padded

open Idealize.ShloMosaic Idealize.ShloMosaic.ValueIdx Idealize.ShloMosaic.StableHlo Idealize.ShloMosaic.TcCoe
open Idealize.SL.Sem Cert.ReferenceIdeal

variable (m : (ℓ : Loc nD τ sig) → Buf (Elt Ideal) ℓ) (c : Dev nD)

/-! ## The three operands as the scatters' terms -/

/-- xp: zeros, then x written at (0, 0), then ones written in column 128. -/
theorem xp_term :
    (Gen.V m c main_v5 : S131072x256.Idx → EReal) =
      Host.scatter scatter_S131072x256_S1_S131072_0_1_1_0 (fun _ b => b)
        (Host.scatter scatter_S131072x256_S1_S131072x128_01_n_1_0 (fun _ b => b)
          (broadcastInDim S131072x256 ![] Gen.bcast_S_S131072x256 (constant (F := Ideal) S_ .f32 0x00000000#32))
          (broadcastInDim S1 ![] Gen.bcast_S_S1 (constantI S_ 32 0#32))
          (m ((c : Thread nD τ).loc main_arg0) : S131072x128.Idx → EReal))
        (broadcastInDim S1 ![] Gen.bcast_S_S1 (constantI S_ 32 128#32))
        (broadcastInDim S131072 ![] Gen.bcast_S_S131072 (constant (F := Ideal) S_ .f32 0x3F800000#32)) := by
  show StableHlo.after Gen.hostOps0 (fun b => m (c, b)) (Proc.devRef .tc main_v5) = _
  after_results

set_option maxHeartbeats 1000000 in
/-- w1p: zeros, then w1 written at (0, 0), b1 (as a vector of 30) in row 128, and a one at (128, 30). -/
theorem w1p_term :
    (Gen.V m c main_v19 : S256x128.Idx → EReal) =
      Host.scatter scatter_S256x128_S2_S__n_01_01_0 (fun _ b => b)
        (Host.scatter scatter_S256x128_S2_S30_0_0_01_0 (fun _ b => b)
          (Host.scatter scatter_S256x128_S2_S128x30_01_n_01_0 (fun _ b => b)
            (broadcastInDim S256x128 ![] Gen.bcast_S_S256x128 (constant (F := Ideal) S_ .f32 0x00000000#32))
            (concatenate S2 0 [⟨S1, broadcastInDim S1 ![] Gen.bcast_S_S1 (constantI S_ 32 0#32)⟩, ⟨S1, broadcastInDim S1 ![] Gen.bcast_S_S1 (constantI S_ 32 0#32)⟩] Gen.concatenates_S1_S1_S2_d0)
            (m ((c : Thread nD τ).loc main_arg1) : S128x30.Idx → EReal))
          (concatenate S2 0 [⟨S1, broadcastInDim S1 ![] Gen.bcast_S_S1 (constantI S_ 32 128#32)⟩, ⟨S1, broadcastInDim S1 ![] Gen.bcast_S_S1 (constantI S_ 32 0#32)⟩] Gen.concatenates_S1_S1_S2_d0)
          (shapeCast S30 (m ((c : Thread nD τ).loc main_arg2) : S1x30.Idx → EReal) Gen.shapeCasts_S1x30_S30))
        (concatenate S2 0 [⟨S1, broadcastInDim S1 ![] Gen.bcast_S_S1 (constantI S_ 32 128#32)⟩, ⟨S1, broadcastInDim S1 ![] Gen.bcast_S_S1 (constantI S_ 32 30#32)⟩] Gen.concatenates_S1_S1_S2_d0)
        (constant (F := Ideal) S_ .f32 0x3F800000#32) := by
  show StableHlo.after Gen.hostOps0 (fun b => m (c, b)) (Proc.devRef .tc main_v19) = _
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

set_option maxHeartbeats 1000000 in
/-- w2p: zeros, then w2 written at (0, 0) and b2 (as a vector of 16) in row 30. -/
theorem w2p_term :
    (Gen.V m c main_v29 : S128x128.Idx → EReal) =
      Host.scatter scatter_S128x128_S2_S16_0_0_01_0 (fun _ b => b)
        (Host.scatter scatter_S128x128_S2_S30x16_01_n_01_0 (fun _ b => b)
          (broadcastInDim S128x128 ![] Gen.bcast_S_S128x128 (constant (F := Ideal) S_ .f32 0x00000000#32))
          (concatenate S2 0 [⟨S1, broadcastInDim S1 ![] Gen.bcast_S_S1 (constantI S_ 32 0#32)⟩, ⟨S1, broadcastInDim S1 ![] Gen.bcast_S_S1 (constantI S_ 32 0#32)⟩] Gen.concatenates_S1_S1_S2_d0)
          (m ((c : Thread nD τ).loc main_arg3) : S30x16.Idx → EReal))
        (concatenate S2 0 [⟨S1, broadcastInDim S1 ![] Gen.bcast_S_S1 (constantI S_ 32 30#32)⟩, ⟨S1, broadcastInDim S1 ![] Gen.bcast_S_S1 (constantI S_ 32 0#32)⟩] Gen.concatenates_S1_S1_S2_d0)
        (shapeCast S16 (m ((c : Thread nD τ).loc main_arg4) : S1x16.Idx → EReal) Gen.shapeCasts_S1x16_S16) := by
  show StableHlo.after Gen.hostOps0 (fun b => m (c, b)) (Proc.devRef .tc main_v29) = _
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

/-! ## The index operands' components, as integers -/

theorem toInt_idxS1 (a : BitVec 32) (n : Int) (h : a.toInt = n) (k : S1.Idx) :
    (broadcastInDim S1 ![] Gen.bcast_S_S1 (constantI S_ 32 a) k).toInt = n := h

theorem toInt_idxS2 (a b : BitVec 32) (n n' : Int) (h : a.toInt = n) (h' : b.toInt = n') (k : S2.Idx) :
    ((concatenate S2 0 [⟨S1, broadcastInDim S1 ![] Gen.bcast_S_S1 (constantI S_ 32 a)⟩, ⟨S1, broadcastInDim S1 ![] Gen.bcast_S_S1 (constantI S_ 32 b)⟩] Gen.concatenates_S1_S1_S2_d0) k).toInt = if (k 0).val = 0 then n else n' := by
  rw [idxS2_apply]
  split
  · exact h
  · exact h'

theorem toInt_idxS2_zero (k : S2.Idx) :
    ((concatenate S2 0 [⟨S1, broadcastInDim S1 ![] Gen.bcast_S_S1 (constantI S_ 32 0#32)⟩, ⟨S1, broadcastInDim S1 ![] Gen.bcast_S_S1 (constantI S_ 32 0#32)⟩] Gen.concatenates_S1_S1_S2_d0) k).toInt = 0 := by
  rw [idxS2_apply]
  split <;> decide

/-! ## The row vectors b1, b2 read at a coordinate -/

theorem b1_apply (x : S1x30.Idx → EReal) (q : Fin 30) :
    shapeCast S30 x Gen.shapeCasts_S1x30_S30 (ix1 q) = x (ix2 0 q) :=
  shapeCast_apply x _ (ix1 q) (ix2 0 q) (by
    rw [Shape.rowMajor_val_two, Shape.rowMajor_val_one]
    show 0 * 30 + q.val = q.val
    omega)

theorem b2_apply (x : S1x16.Idx → EReal) (q : Fin 16) :
    shapeCast S16 x Gen.shapeCasts_S1x16_S16 (ix1 q) = x (ix2 0 q) :=
  shapeCast_apply x _ (ix1 q) (ix2 0 q) (by
    rw [Shape.rowMajor_val_two, Shape.rowMajor_val_one]
    show 0 * 16 + q.val = q.val
    omega)

/-! ## The three operands entry by entry -/

/-- xp at (r, k): x for k < 128, one for k = 128, zero beyond. -/
theorem xp_apply (r : Fin 131072) (k : Fin 256) :
    (Gen.V m c main_v5 : S131072x256.Idx → EReal) (ix2 r k)
      = if h : k.val < 128 then (m ((c : Thread nD τ).loc main_arg0) : S131072x128.Idx → EReal) (ix2 r ⟨k.val, h⟩)
        else if k.val = 128 then Ideal.ofBits .f32 0x3F800000#32 else Ideal.ofBits .f32 0x00000000#32 := by
  rw [xp_term, scatter2_apply _ _ (toInt_idxS1 128#32 128 (by decide)), scatter1_apply _ _ (toInt_idxS1 0#32 0 (by decide))]
  by_cases h1 : k.val = 128
  · rw [if_pos h1, dif_neg (by omega), if_pos h1]; rfl
  · rw [if_neg h1]
    by_cases h2 : k.val < 128
    · rw [dif_pos h2, dif_pos h2]
    · rw [dif_neg h2, dif_neg h2, if_neg h1]; rfl

/-- w1p at (k, j): w1 for k < 128 and j < 30, b1 in row 128 for j < 30, one at (128, 30), zero elsewhere. -/
theorem w1p_apply (k : Fin 256) (j : Fin 128) :
    (Gen.V m c main_v19 : S256x128.Idx → EReal) (ix2 k j)
      = if h : k.val < 128 ∧ j.val < 30 then
          (m ((c : Thread nD τ).loc main_arg1) : S128x30.Idx → EReal) (ix2 ⟨k.val, h.1⟩ ⟨j.val, h.2⟩)
        else if h : k.val = 128 ∧ j.val < 30 then
          (m ((c : Thread nD τ).loc main_arg2) : S1x30.Idx → EReal) (ix2 0 ⟨j.val, h.2⟩)
        else if k.val = 128 ∧ j.val = 30 then Ideal.ofBits .f32 0x3F800000#32 else Ideal.ofBits .f32 0x00000000#32 := by
  rw [w1p_term, scatter5_apply _ _ (toInt_idxS2 128#32 30#32 128 30 (by decide) (by decide)),
    scatter4_apply _ _ (toInt_idxS2 128#32 0#32 128 0 (by decide) (by decide)),
    scatter3_apply _ _ toInt_idxS2_zero]
  by_cases h5 : k.val = 128 ∧ j.val = 30
  · rw [if_pos h5, dif_neg (by omega), dif_neg (by omega), if_pos h5]; rfl
  · rw [if_neg h5]
    by_cases h4 : k.val = 128 ∧ j.val < 30
    · rw [dif_pos h4, dif_neg (by omega), dif_pos h4]; exact b1_apply _ _
    · rw [dif_neg h4]
      by_cases h3 : k.val < 128 ∧ j.val < 30
      · rw [dif_pos h3, dif_pos h3]
      · rw [dif_neg h3, dif_neg h3, dif_neg h4, if_neg h5]; rfl

/-- w2p at (j, a): w2 for j < 30 and a < 16, b2 in row 30 for a < 16, zero elsewhere. -/
theorem w2p_apply (j : Fin 128) (a : Fin 128) :
    (Gen.V m c main_v29 : S128x128.Idx → EReal) (ix2 j a)
      = if h : j.val < 30 ∧ a.val < 16 then
          (m ((c : Thread nD τ).loc main_arg3) : S30x16.Idx → EReal) (ix2 ⟨j.val, h.1⟩ ⟨a.val, h.2⟩)
        else if h : j.val = 30 ∧ a.val < 16 then
          (m ((c : Thread nD τ).loc main_arg4) : S1x16.Idx → EReal) (ix2 0 ⟨a.val, h.2⟩)
        else Ideal.ofBits .f32 0x00000000#32 := by
  rw [w2p_term, scatter7_apply _ _ (toInt_idxS2 30#32 0#32 30 0 (by decide) (by decide)),
    scatter6_apply _ _ toInt_idxS2_zero]
  by_cases h7 : j.val = 30 ∧ a.val < 16
  · rw [dif_pos h7, dif_neg (by omega), dif_pos h7]; exact b2_apply _ _
  · rw [dif_neg h7]
    by_cases h6 : j.val < 30 ∧ a.val < 16
    · rw [dif_pos h6, dif_pos h6]
    · rw [dif_neg h6, dif_neg h6, dif_neg h7]; rfl

end Cert.ReferenceIdeal.Padded
-- ==== Proof.RefBridge.lean ====
/-
  The reference program's result is the plain network.  The padded arrays the reference's host lines build are the
  padded row, the first weight matrix with its bias row and the carrying one, and the second weight matrix with its
  bias row; so the first 16 columns of the padded network on them are the plain network on the arguments.
-/
import proofs.«109628_g2000306519504181_pallasbulk_291_22_alg».proof.Proof.RefBlocks
import proofs.«109628_g2000306519504181_pallasbulk_291_22_alg».proof.Proof.RefPadded

noncomputable section

namespace Cert.ReferenceIdeal.Bridge

open Idealize.ShloMosaic Idealize.ShloMosaic.TcCoe Idealize.ShloMosaic.ValueIdx Idealize.SL.Sem
open Cert.ReferenceIdeal Cert.Anet.Spec

variable (m : (ℓ : Loc nD τ sig) → Buf (Elt Ideal) ℓ)

/-- The first 16 columns of the padded result are the network applied to every row of the first argument. -/
theorem resultS_eq (c : Dev nD) :
    Blocks.resultS m c
      = netArr (m ((c : Thread nD τ).loc main_arg0)) (m ((c : Thread nD τ).loc main_arg1))
          (m ((c : Thread nD τ).loc main_arg2)) (m ((c : Thread nD τ).loc main_arg3)) (m ((c : Thread nD τ).loc main_arg4)) := by
  funext i
  unfold Blocks.resultS Blocks.resultP netArr
  refine Eq.trans ?_ (outP_eq
    (fun k => (m ((c : Thread nD τ).loc main_arg0) : S131072x128.Idx → EReal) (ix2 (i 0) k))
    (fun k j => (m ((c : Thread nD τ).loc main_arg1) : S128x30.Idx → EReal) (ix2 k j))
    (fun j => (m ((c : Thread nD τ).loc main_arg2) : S1x30.Idx → EReal) (ix2 0 j))
    (fun j a => (m ((c : Thread nD τ).loc main_arg3) : S30x16.Idx → EReal) (ix2 j a))
    (fun a => (m ((c : Thread nD τ).loc main_arg4) : S1x16.Idx → EReal) (ix2 0 a)) (i 1))
  have hx : (fun k => (Gen.V m c main_v5 : S131072x256.Idx → EReal) (ix2 (i 0) k))
      = padX (fun k => (m ((c : Thread nD τ).loc main_arg0) : S131072x128.Idx → EReal) (ix2 (i 0) k)) :=
    funext fun k => (Padded.xp_apply m c (i 0) k).trans rfl
  have hw1 : (fun k j => (Gen.V m c main_v19 : S256x128.Idx → EReal) (ix2 k j))
      = padW1 (fun k j => (m ((c : Thread nD τ).loc main_arg1) : S128x30.Idx → EReal) (ix2 k j))
          (fun j => (m ((c : Thread nD τ).loc main_arg2) : S1x30.Idx → EReal) (ix2 0 j)) :=
    funext fun k => funext fun j => (Padded.w1p_apply m c k j).trans rfl
  have hw2 : (fun j a => (Gen.V m c main_v29 : S128x128.Idx → EReal) (ix2 j a))
      = padW2 (fun j a => (m ((c : Thread nD τ).loc main_arg3) : S30x16.Idx → EReal) (ix2 j a))
          (fun a => (m ((c : Thread nD τ).loc main_arg4) : S1x16.Idx → EReal) (ix2 0 a)) :=
    funext fun j => funext fun a => (Padded.w2p_apply m c j a).trans rfl
  show outP (fun k => (Gen.V m c main_v5 : S131072x256.Idx → EReal) (ix2 (i 0) k))
      (fun k j => (Gen.V m c main_v19 : S256x128.Idx → EReal) (ix2 k j))
      (fun j a => (Gen.V m c main_v29 : S128x128.Idx → EReal) (ix2 j a)) ⟨(i 1).val, _⟩ = _
  rw [hx, hw1, hw2]

end Cert.ReferenceIdeal.Bridge

end
-- ==== Proof.lean ====
/-
  Both programs compute, for every row x of a 131072 × 128 array, the two-layer network
      y_a = 2 · tanh( Σ_j max( Σ_k x_k · w1_{k,j} + b1_j , 0 ) · w2_{j,a} + b2_a ),   a < 16.
  The kernel program transposes the two weight matrices on the host, runs one region over four blocks of 32768 rows
  whose body stores the block's result transposed (16 × 32768), and transposes the 16 × 131072 array back.  The
  reference program folds the biases into padded matrices built by overwriting scatters on the host (a one in column
  128 of the input, the first bias in row 128 of the first matrix with a one at (128, 30), the second bias in row 30 of
  the second matrix), runs one region over 128 blocks of 1024 rows whose body is two bias-free products, and slices
  the first 16 of 128 result columns.  On the extended reals the two are one function: every product the padding adds
  has a zero factor, one times a bias is the bias, max(1, 0) = 1 and max(0, 0) = 0 — no finiteness is needed, a zero
  factor annihilates every extended real.  The three frames are the generated ones; nothing was rewritten when the
  kernel was idealized, so the idealization claim is trivial.
-/
import proofs.«109628_g2000306519504181_pallasbulk_291_22_alg».proof.Defs
import proofs.«109628_g2000306519504181_pallasbulk_291_22_alg».proof.Proof.Gen.Kernel
import proofs.«109628_g2000306519504181_pallasbulk_291_22_alg».proof.Proof.Gen.Kernel.Skeleton
import proofs.«109628_g2000306519504181_pallasbulk_291_22_alg».proof.Proof.Gen.Kernel.Launch
import proofs.«109628_g2000306519504181_pallasbulk_291_22_alg».proof.Proof.Gen.Kernel.Points
import proofs.«109628_g2000306519504181_pallasbulk_291_22_alg».proof.Proof.Gen.Kernel.Frame
import proofs.«109628_g2000306519504181_pallasbulk_291_22_alg».proof.Proof.Gen.KernelIdeal
import proofs.«109628_g2000306519504181_pallasbulk_291_22_alg».proof.Proof.Gen.KernelIdeal.Skeleton
import proofs.«109628_g2000306519504181_pallasbulk_291_22_alg».proof.Proof.Gen.KernelIdeal.Launch
import proofs.«109628_g2000306519504181_pallasbulk_291_22_alg».proof.Proof.Gen.KernelIdeal.Points
import proofs.«109628_g2000306519504181_pallasbulk_291_22_alg».proof.Proof.Gen.KernelIdeal.Frame
import proofs.«109628_g2000306519504181_pallasbulk_291_22_alg».proof.Proof.Gen.ReferenceIdeal
import proofs.«109628_g2000306519504181_pallasbulk_291_22_alg».proof.Proof.Gen.ReferenceIdeal.Skeleton
import proofs.«109628_g2000306519504181_pallasbulk_291_22_alg».proof.Proof.Gen.ReferenceIdeal.Launch
import proofs.«109628_g2000306519504181_pallasbulk_291_22_alg».proof.Proof.Gen.ReferenceIdeal.Points
import proofs.«109628_g2000306519504181_pallasbulk_291_22_alg».proof.Proof.Gen.ReferenceIdeal.Frame
import proofs.«109628_g2000306519504181_pallasbulk_291_22_alg».proof.Proof.Gen.Pre_finite_inputs
import proofs.«109628_g2000306519504181_pallasbulk_291_22_alg».proof.Proof.KernelBlocks
import proofs.«109628_g2000306519504181_pallasbulk_291_22_alg».proof.Proof.RefBridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The ideal pass rewrote nothing: there is nothing to preserve. -/
theorem preserves : Cert.preserves_Kernel_KernelIdeal := trivial

/-- Both runs end with the result buffer at the network applied to every row of the first argument: the kernel
    program's by its four transposed blocks, the reference's by the padded network's first 16 columns. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Blocks.run m' ρ')
  rw [Cert.ReferenceIdeal.Bridge.resultS_eq, (hagree c).1, (hagree c).2.1, (hagree c).2.2.1, (hagree c).2.2.2.1,
    (hagree c).2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
